-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S50000 .f32) (main_arg3 : FVec F S128x128 .f32) (main_arg4 : FVec F S128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S5000x128 : Shape := ⟨2, ![5000, 128]⟩
abbrev S_ : Shape := ⟨0, ![]⟩
abbrev S1600000x1 : Shape := ⟨2, ![1600000, 1]⟩
abbrev S100000 : Shape := ⟨1, ![100000]⟩
abbrev S1600000x128 : Shape := ⟨2, ![1600000, 128]⟩
abbrev S50000x128 : Shape := ⟨2, ![50000, 128]⟩
abbrev S50000x1 : Shape := ⟨2, ![50000, 1]⟩
abbrev S100000x1 : Shape := ⟨2, ![100000, 1]⟩
abbrev S1x128 : Shape := ⟨2, ![1, 128]⟩
abbrev S5000x1 : Shape := ⟨2, ![5000, 1]⟩

abbrev nBuf : Space → Nat
  | .hbm => 112
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S50000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .bf16⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S50000, .f32⟩
  | .hbm, ⟨39, _⟩ => ⟨S1600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .i1⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .bf16⟩
  | .hbm, ⟨60, _⟩ => ⟨S1600000x128, .f32⟩
  | .hbm, ⟨61, _⟩ => ⟨S_, .f32⟩
  | .hbm, ⟨62, _⟩ => ⟨S50000x128, .f32⟩
  | .hbm, ⟨63, _⟩ => ⟨S1600000x1, .i32⟩
  | .hbm, ⟨64, _⟩ => ⟨S50000x128, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x128, .bf16⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .bf16⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x1, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S100000x1, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_c_10 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_c_13 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57_0 : Ref sig .tc := ⟨.hbm, 85, rfl⟩
abbrev main_v57_1 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_17 : Ref sig .tc := ⟨.hbm, 97, rfl⟩
abbrev main_v66 : Ref sig .tc := ⟨.hbm, 98, rfl⟩
abbrev main_v67 : Ref sig .tc := ⟨.hbm, 99, rfl⟩
abbrev main_cst_18 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S50000 : S_.BroadcastsInDim S50000 (![] : Fin 0 → Fin S50000.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  dot_S5000x128_S128x128_S5000x128_1_0_0_1_n_n_wf : DotDims.WF S5000x128 S128x128 S5000x128 [1] [0] [0] [1] [] []
  gather_S50000_S1600000x1_S1600000_n_0_n_n_0_1_1_wf : GatherDims.WF S50000 S1600000x1 S1600000 [] [0] [] [0] [] 1 ![1]
  scatter_S100000_S1600000x1_S1600000_n_0_0_1_wf : ScatterDims.WF S100000 S1600000x1 S1600000 [] [0] [0] 1
  scatter_S50000_S1600000x1_S1600000_n_0_0_1_wf : ScatterDims.WF S50000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57_0) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57_1) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S1600000x128 : Shape := ⟨2, ![1600000, 128]⟩
abbrev S50000x128 : Shape := ⟨2, ![50000, 128]⟩
abbrev S50000x1 : Shape := ⟨2, ![50000, 1]⟩
abbrev S100000x1 : Shape := ⟨2, ![100000, 1]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S50000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S50000, .f32⟩
  | .hbm, ⟨39, _⟩ => ⟨S1600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .i1⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S50000x128, .f32⟩
  | .hbm, ⟨62, _⟩ => ⟨S1600000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S_, .f32⟩
  | .hbm, ⟨119, _⟩ => ⟨S100000x128, .f32⟩
  | .hbm, ⟨120, _⟩ => ⟨S100000x128, .f32⟩
  | .hbm, ⟨121, _⟩ => ⟨S_, .f32⟩
  | .hbm, ⟨122, _⟩ => ⟨S100000x128, .f32⟩
  | .hbm, ⟨123, _⟩ => ⟨S100000x128, .f32⟩
  | .hbm, ⟨124, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_c_10 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_12 : Ref sig .tc := ⟨.hbm, 67, rfl⟩
abbrev main_v42 : Ref sig .tc := ⟨.hbm, 68, rfl⟩
abbrev main_v43 : Ref sig .tc := ⟨.hbm, 69, rfl⟩
abbrev main_c_13 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_14 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_cst_16 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_17 : Ref sig .tc := ⟨.hbm, 95, rfl⟩
abbrev main_v65 : Ref sig .tc := ⟨.hbm, 96, rfl⟩
abbrev main_cst_18 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_19 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_20 : Ref sig .tc := ⟨.hbm, 118, rfl⟩
abbrev main_v85 : Ref sig .tc := ⟨.hbm, 119, rfl⟩
abbrev main_v86 : Ref sig .tc := ⟨.hbm, 120, rfl⟩
abbrev main_cst_21 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S50000 : S_.BroadcastsInDim S50000 (![] : Fin 0 → Fin S50000.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  gather_S50000_S1600000x1_S1600000_n_0_n_n_0_1_1_wf : GatherDims.WF S50000 S1600000x1 S1600000 [] [0] [] [0] [] 1 ![1]
  scatter_S100000_S1600000x1_S1600000_n_0_0_1_wf : ScatterDims.WF S100000 S1600000x1 S1600000 [] [0] [0] 1
  scatter_S50000_S1600000x1_S1600000_n_0_0_1_wf : ScatterDims.WF S50000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
/-
  The idealized kernel's run with its result named.

  The program is three gridded kernels among stretches of array operations. Every weakly fair execution from a
  memory with zero counters terminates without a fault; its final memory holds, at every buffer that outlives the
  kernels, the contents obtained by folding the program over the launch memory: each stretch of array operations
  applied in order, each kernel's arrays replaced by what its write-backs leave. Read at the arguments this is the
  frame; read at the result buffer it names the result as that fold's value there, which the value modules open
  kernel by kernel.
-/
import proofs.«117371_j55035710931434_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's value there, and every argument array as launched. -/
theorem run_result : θ_run defs (onTc (τ := τ) (main (F := F))) ⟨m, fun _ => 0, ρ⟩ (fun r => ∀ c : Dev nD,
      r.2.mem ((c.tc : Thread nD τ).loc main_v78) = W10 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v78 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Run

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.LibPlainFields.lean ====
/-
  A kernel's matrix product whose dimension record is ANY record with the plain lists — contract the left
  operand's last axis with the right operand's first, no batch axis — accumulated into the zero block: its entry
  (a, b) is the sum over c of A(a, c) · B(c, b) on the extended reals.  A program's printed record carries its own
  proof of well-formedness; only the six lists matter, and they are compared here, not the records.
  Generic in the three extents, the operand formats and the precision key.
-/
import proofs.«117371_j55035710931434_2_alg».proof.Proof.LibPlainMatmul

noncomputable section

namespace Cert.LibPlainFields

open Idealize.ShloMosaic Idealize.ShloMosaic.ValueIdx

theorem matmul_plainFields_zero_apply {m k n : Nat} {φ₁ φ₂ : FTy} (D : DotDims ⟨2, ![m, k]⟩ ⟨2, ![k, n]⟩ ⟨2, ![m, n]⟩)
    (h1 : D.lhsContracting = [1]) (h2 : D.rhsContracting = [0]) (h3 : D.lhsNonContracting = [0]) (h4 : D.rhsNonContracting = [1])
    (h5 : D.lhsBatch = []) (h6 : D.rhsBatch = []) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  obtain ⟨lc, rc, ln, rn, lb, rb, wf⟩ := D
  dsimp only at h1 h2 h3 h4 h5 h6
  subst h1 h2 h3 h4 h5 h6
  exact Cert.LibPlainMatmul.matmul_plain_zero_apply prec A B a b

end Cert.LibPlainFields

end
-- ==== Proof.Region0.lean ====
/-
  The first kernel read as one whole-array function.

  The kernel walks the node rows in twenty blocks of 5000. At a block it reads the block of x and the whole weight
  matrix W, both rounded to a narrower format (the identity on the extended reals), multiplies them into a zero
  accumulator and stores the product rounded again. Row p of a block's product depends on row p of the block alone,
  so the [100000, 128] result is, at every index (n, q), the sum over c of x(n, c) · W(c, q): block t, row p is node
  5000·t + p.
-/
import proofs.«117371_j55035710931434_2_alg».proof.Proof.Gen.KernelIdeal.Frame
import proofs.«117371_j55035710931434_2_alg».proof.Proof.LibPlainFields
import Idealize.ShloMosaic.Lib.Pipeline.Value
import Idealize.ShloMosaic.Lib.ValueIdx

noncomputable section

open scoped BigOperators

namespace Cert.KernelIdeal.Project

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The projected features: entry (n, q) is the sum over c of x(n, c) · W(c, q). -/
def projected (X : S100000x128.Idx → Elt Ideal .f32) (W : S128x128.Idx → Elt Ideal .f32) :
    S100000x128.Idx → Elt Ideal .bf16 :=
  fun i => ∑ c : Fin 128, X (ix2 (i 0 : Fin 100000) c) * W (ix2 c (i 1 : Fin 128))

/-- The body's stored value at row p, column q of the block: the product's entry. -/
theorem stored_apply (v0 : Vec Ideal S5000x128 .f32) (v2 : Vec Ideal S128x128 .f32) (p : Fin 5000) (q : Fin 128) :
    k0_pay1 v0 v2 (ix2 p q) = ∑ c : Fin 128, v0 (ix2 p c) * v2 (ix2 c q) := by
  unfold k0_pay1
  exact Cert.LibPlainFields.matmul_plainFields_zero_apply dot_S5000x128_S128x128_S5000x128_1_0_0_1_n_n rfl rfl rfl rfl rfl rfl
    none (truncf .bf16 v0 bitsLt_bf16_f32) (truncf .bf16 v2 bitsLt_bf16_f32) p q

/-- The index maps over the grid: the x window and the output window move together down the rows, the weight window
    stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projected features of the arrays as the kernel finds them. -/
theorem flushed_eq (c : Dev nD) (t : Fin cfg0.N) :
    (dat0 V c).flushed 2 t = ((cfg0.win 2).blk t).view.read (Elt Ideal) (projected (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  refine (stored_apply (iblk0 V c 0 t) (iblk0 V c 1 t) p q).trans ?_
  rw [View.read_apply]
  unfold projected
  refine Finset.sum_congr rfl fun k _ => ?_
  have hx : iblk0 V c 0 t (ix2 p k) = V c main_arg0 (ix2 ((((cfg0.win 2).blk t).view.emb (ix2 p q)) 0 : Fin 100000) k) := by
    unfold iblk0
    rw [View.read_apply]
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : iblk0 V c 1 t (ix2 k q) = V c main_arg3 (ix2 k ((((cfg0.win 2).blk t).view.emb (ix2 p q)) 1 : Fin 128)) := by
    unfold iblk0
    rw [View.read_apply]
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every node row lies in the block of the point its number divided by 5000 names. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; dsimp only; omega
  | ⟨1, _⟩ =>
    show win0_2.index _ (1 : Fin 2) * 128 ≤ (i 1).val ∧ (i 1).val < win0_2.index _ (1 : Fin 2) * 128 + 128
    rw [e5]; omega

/-- The array after the kernel: the projected features. -/
theorem final (c : Dev nD) : (dat0 V c).arrAt 2 cfg0.N = projected (V c main_arg0) (V c main_arg3) :=
  (dat0 V c).arrAt_eq_of_cover 2 _ (fun t _ => flushed_eq V c t) cover

end Cert.KernelIdeal.Project

end
-- ==== Proof.LibUnitAxes.lean ====
/-
  Three layout operations read at an index given by its coordinates, generic in the extents and the element type.
  • A shape cast that DROPS two leading unit axes, [1, 1, a, b] → [a, b], reads at (p, c) the operand at (0, 0, p, c); the
    cast that ADDS them, [a, b] → [1, 1, a, b], reads at (0, 0, p, c) the operand at (p, c): the row-major position of
    (0, 0, p, c) in [1, 1, a, b] is p·b + c, that of (p, c) in [a, b].
  • A column [a, 1] broadcast along the second axis to [a, b] reads at (p, c) the column's entry p, whatever c.
-/
import Idealize.ShloMosaic.Lib.ValueLayout

namespace Cert.LibUnitAxes

open Idealize.ShloMosaic Idealize.ShloMosaic.ValueIdx

variable {α : Type}

/-- [1, 1, a, b] cast to [a, b], at (p, c): the operand at (0, 0, p, c). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h (ix2 p c) (ix4 (0 : Fin 1) (0 : Fin 1) p c) (by
    rw [Shape.rowMajor_val_four, Shape.rowMajor_val_two]
    show (((0 * 1 + 0) * a + p.val) * b + c.val) = p.val * b + c.val
    simp only [Nat.zero_mul, Nat.zero_add])

/-- [a, b] cast to [1, 1, a, b], at (0, 0, p, c): the operand at (p, c). -/
theorem shapeCast_ab_11ab_apply {a b : ℕ} (x : (⟨2, ![a, b]⟩ : Shape).Idx → α)
    (h : (⟨2, ![a, b]⟩ : Shape).ShapeCasts ⟨4, ![1, 1, a, b]⟩) (p : Fin a) (c : Fin b) :
    shapeCast ⟨4, ![1, 1, a, b]⟩ x h (ix4 (0 : Fin 1) (0 : Fin 1) p c) = x (ix2 p c) :=
  shapeCast_apply x h (ix4 (0 : Fin 1) (0 : Fin 1) p c) (ix2 p c) (by
    rw [Shape.rowMajor_val_four, Shape.rowMajor_val_two]
    show p.val * b + c.val = (((0 * 1 + 0) * a + p.val) * b + c.val)
    simp only [Nat.zero_mul, Nat.zero_add])

/-- A column [a, 1] broadcast to [a, b], at (p, c): the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibUnitAxes
-- ==== Proof.LibRowForms.lean ====
/-
  Three reads at an index beside the library's layout lemmas, at any extents.

  A sum DOWN the columns of an `[a, b]` array (a reduction along its first axis) at column `c` runs over `k ↦ (k, c)`.
  A unit-stride slice of a matrix with an offset on BOTH axes (a diagonal block), or of a vector, reads its operand at
  the index moved by the offsets. A matrix `[a, b]` flattened to a row `[1, n]` reads, at position `k = p·b + q`, the
  matrix at `(p, q)`. The indices are written by coordinates, so each lemma applies to a printed operation by
  unification.
-/
import Idealize.ShloMosaic.Lib.ValueLayout
import Idealize.ShloMosaic.PureOps.Ideal.Laws

namespace Idealize.ShloMosaic.ValueIdx

open Idealize.ShloMosaic

variable {α : Type}

/-- Over a reduction of `[a, b]` along its FIRST axis, the source index above column `c` with `k` on the dropped axis is `(k, c)`. -/
theorem lift_col {a b : ℕ} (h : (⟨2, ![a, b]⟩ : Shape).Reduces [(0 : Fin 2)] ⟨1, ![b]⟩) (c : Fin b) (k : Fin a) :
    h.lift (ix1 c) k = ix2 k c :=
  funext fun d => Fin.ext (by match d with | ⟨0, _⟩ => rfl | ⟨1, _⟩ => rfl)

variable {φ : FTy}

/-- A sum down the columns of an `[a, b]` array at column `c`, at the exact values: the sum over the column. -/
theorem multiReduction_add_col {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (c : Fin b) :
    multiReduction .add [(0 : Fin 2)] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_col h c k)

/-- A unit-stride slice of a matrix reads the matrix at the index moved by the offsets. -/
theorem slice2_apply {A B a b : ℕ} (o0 o1 : ℕ) (x : (⟨2, ![A, B]⟩ : Shape).Idx → α)
    (h : (⟨2, ![A, B]⟩ : Shape).Slices ![o0, o1] ⟨2, ![a, b]⟩) (p : Fin a) (q : Fin b) (P : Fin A) (Q : Fin B)
    (hP : P.val = o0 + p.val) (hQ : Q.val = o1 + q.val) :
    extractStridedSlice ⟨2, ![a, b]⟩ ![o0, o1] x h (ix2 p q) = x (ix2 P Q) :=
  extractStridedSlice_apply ![o0, o1] x h (ix2 p q) (ix2 P Q) fun ax => by
    match ax with
    | ⟨0, _⟩ => exact hP
    | ⟨1, _⟩ => exact hQ

/-- A unit-stride slice of a vector reads the vector at the index moved by the offset. -/
theorem slice1_apply {A a : ℕ} (o : ℕ) (x : (⟨1, ![A]⟩ : Shape).Idx → α)
    (h : (⟨1, ![A]⟩ : Shape).Slices ![o] ⟨1, ![a]⟩) (p : Fin a) (P : Fin A) (hP : P.val = o + p.val) :
    extractStridedSlice ⟨1, ![a]⟩ ![o] x h (ix1 p) = x (ix1 P) :=
  extractStridedSlice_apply ![o] x h (ix1 p) (ix1 P) fun ax => by
    match ax with
    | ⟨0, _⟩ => exact hP

/-- A matrix `[a, b]` flattened to the row `[1, a·b]` reads, at `(u, k)`, the matrix at `(k / b, k % b)`. -/
theorem shapeCast_ab_1n_apply {a b n : ℕ} (v : (⟨2, ![a, b]⟩ : Shape).Idx → α) (h : (⟨2, ![a, b]⟩ : Shape).ShapeCasts ⟨2, ![1, n]⟩)
    (u : Fin 1) (k : Fin n) (p : Fin a) (q : Fin b) (hk : k.val = p.val * b + q.val) :
    shapeCast ⟨2, ![1, n]⟩ v h (ix2 u k) = v (ix2 p q) :=
  shapeCast_apply v h _ _ (by
    have hu : u.val = 0 := by omega
    rw [Shape.rowMajor_val_two, Shape.rowMajor_val_two]
    show p.val * b + q.val = u.val * n + k.val
    rw [hu, hk, Nat.zero_mul, Nat.zero_add])

end Idealize.ShloMosaic.ValueIdx
-- ==== Proof.LibBlockSums.lean ====
/-
  Two re-indexing facts for sums cut into consecutive blocks of equal length, in any additive commutative monoid.

  A sum over the first a * b natural numbers is the sum, over the a blocks, of the sums over the b positions inside a
  block, the position k of block c being the number c * b + k. The same for a sum over Fin n with a * b = n, where
  the summand at block k, position r is read at the index k * b + r (which is below n, so the guard on the index is
  always satisfied).
-/
import Mathlib.Algebra.BigOperators.Fin
import Mathlib.Algebra.BigOperators.Intervals

open scoped BigOperators

namespace Cert.LibBlockSums

/-- A sum over the first a * b natural numbers, cut into a consecutive blocks of length b: the block c holds the numbers
    c * b + k for k below b. By induction on the number of blocks, splitting the last block off the range. -/
theorem sum_range_mul {M : Type*} [AddCommMonoid M] (a b : ℕ) (g : ℕ → M) :
    ∑ c ∈ Finset.range a, ∑ k ∈ Finset.range b, g (c * b + k) = ∑ t ∈ Finset.range (a * b), g t := by
  induction a with
  | zero => simp
  | succ a ih => rw [Finset.sum_range_succ, ih, add_one_mul, Finset.sum_range_add]

/-- A sum over Fin n with a * b = n, cut into a consecutive blocks of length b: block k, position r reads the index
    k * b + r. The guard k * b + r < n holds for every k below a, so the guarded summand is the function's value; the
    guarded function on the natural numbers (the value below n, zero from n on) turns both sides into sums over ranges,
    where the cut is `sum_range_mul`. -/
theorem sum_blocks {M : Type*} [AddCommMonoid M] (a b n : ℕ) (hn : a * b = n) (f : Fin n → M) :
    ∑ k ∈ Finset.range a, ∑ r : Fin b, (if h : k * b + r.val < n then f ⟨k * b + r.val, h⟩ else 0) = ∑ i : Fin n, f i := by
  have hg : ∀ k : ℕ, (∑ r : Fin b, (if h : k * b + r.val < n then f ⟨k * b + r.val, h⟩ else 0))
      = ∑ r ∈ Finset.range b, (fun t : ℕ => if h : t < n then f ⟨t, h⟩ else 0) (k * b + r) := fun k =>
    (Finset.sum_range fun r : ℕ => (fun t : ℕ => if h : t < n then f ⟨t, h⟩ else 0) (k * b + r)).symm
  rw [Finset.sum_congr rfl fun k _ => hg k, sum_range_mul a b fun t : ℕ => if h : t < n then f ⟨t, h⟩ else 0, hn,
    Finset.sum_range]
  exact Finset.sum_congr rfl fun i _ => dif_pos i.2

end Cert.LibBlockSums
-- ==== Proof.Lits.lean ====
/-
  The float literals of the two programs as the extended reals their bit patterns denote: +0.0 is 0, 1.0 is 1,
  100000.0 is the real 100000 (the number of nodes, the divisor of both means), and the batch-norm epsilon, the
  single-precision number nearest 1e-5, is a positive real.
-/
import Idealize.ShloMosaic.PureOps.Ideal

noncomputable section

namespace Cert.Lits

open Idealize.ShloMosaic

theorem zero : Ideal.ofBits .f32 0x00000000#32 = 0 := by
  simp [Ideal.ofBits, Ideal.ieee]

theorem one : Ideal.ofBits .f32 0x3F800000#32 = ((1 : ℝ) : EReal) := by
  simp [Ideal.ofBits, Ideal.ieee, -EReal.coe_mul]; norm_num

theorem nodes : Ideal.ofBits .f32 0x47C35000#32 = ((100000 : ℝ) : EReal) := by
  simp [Ideal.ofBits, Ideal.ieee, -EReal.coe_mul]; norm_num

/-- The epsilon's value, 10995116 · 2^(-40). -/
def eps : ℝ := 10995116 * (2 : ℝ) ^ (-40 : Int)

theorem eps_pos : 0 < eps := by unfold eps; positivity

theorem epsilon : Ideal.ofBits .f32 0x3727C5AC#32 = ((eps : ℝ) : EReal) := by
  unfold eps
  simp [Ideal.ofBits, Ideal.ieee, -EReal.coe_mul]

end Cert.Lits

end
-- ==== Proof.Region1.lean ====
/-
  The second kernel read as two whole-array functions: the column sums and the column sums of squares.

  The kernel walks the node rows in twenty blocks of 5000, one after the other on one core. At a block it forms
  the raw values  A(n, q) · d(n) + b(q)  of the block's rows from the aggregated features A, the inverse degree
  column d and the bias row b, and adds their sum down the block's rows (and the sum of their squares) into two
  [1, 128] accumulators that stay in place from block to block; the first block starts both from zero, the last
  block's contents are written back. So the first result holds, at column q, zero plus the twenty block sums added
  in order, which on the extended reals is the sum over all 100000 nodes of the raw values of column q, and the
  second the sum of their squares: block s, row k is node 5000·s + k.
-/
import proofs.«117371_j55035710931434_2_alg».proof.Proof.Gen.KernelIdeal.Frame
import proofs.«117371_j55035710931434_2_alg».proof.Proof.LibUnitAxes
import proofs.«117371_j55035710931434_2_alg».proof.Proof.LibRowForms
import proofs.«117371_j55035710931434_2_alg».proof.Proof.LibBlockSums
import proofs.«117371_j55035710931434_2_alg».proof.Proof.Lits
import Idealize.ShloMosaic.Lib.Pipeline.Value
import Idealize.ShloMosaic.Lib.ValueIdx
import Idealize.ShloMosaic.Lib.ValueLayout
import Idealize.ShloMosaic.Lib.Tactic

noncomputable section

open scoped BigOperators

namespace Cert.KernelIdeal.Stats

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## What each case of the body leaves in the two accumulators -/

section Pieces

variable {F : FTy → Type} [FloatOps F]

/-- A later block: the first accumulator, holding `xo3`, ends at the stored sum of `xo3` and the block's column sums. -/
theorem later_sum (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S5000x1 .f32) (x2 xo3 xo4 : Vec F S1x128 .f32) :
    out1_B_3 c i a1 h1 a2 h2 a3 h3 a4 h4 a5 h5 hc x0 x1 x2 xo3 xo4 = k1_pay4 x0 x1 x2 xo3 := by
  unfold out1_B_3
  rw [View.read_writes_eq_canon _ _ _ (cover1_B_3 c i a1 h1 a2 h2 a3 h3 a4 h4 a5 h5 hc x0 x1 x2 xo3 xo4)]
  unfold kernelRun1_B
  dsimp only
  rw [View.canon_unit_zero hz]
  simp only [View.readAt_eq_ld, h1.read_unread, h2.read_unread, h3.read_unread, h4.read_unread,
    View.ld_unit_zero (S := S5000x128) hz, View.ld_unit_zero (S := S5000x1) hz, View.ld_unit_zero (S := S1x128) hz]

/-- A later block: the second accumulator, holding `xo4`, ends at `xo4` plus the block's column sums of squares. -/
theorem later_sumsq (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S5000x1 .f32) (x2 xo3 xo4 : Vec F S1x128 .f32) :
    out1_B_4 c i a1 h1 a2 h2 a3 h3 a4 h4 a5 h5 hc x0 x1 x2 xo3 xo4 = k1_pay5 x0 x1 x2 xo4 := by
  unfold out1_B_4
  rw [View.read_writes_eq_canon _ _ _ (cover1_B_4 c i a1 h1 a2 h2 a3 h3 a4 h4 a5 h5 hc x0 x1 x2 xo3 xo4)]
  unfold kernelRun1_B
  dsimp only
  rw [View.canon_unit_zero hz]
  simp only [View.readAt_eq_ld, h1.read_unread, h2.read_unread, h3.read_unread, h5.read_unread,
    View.ld_unit_zero (S := S5000x128) hz, View.ld_unit_zero (S := S5000x1) hz, View.ld_unit_zero (S := S1x128) hz]

/-- The first block: the first accumulator is set to zero, read back, and ends at zero plus the block's column sums. -/
theorem first_sum (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S5000x1 .f32) (x2 : Vec F S1x128 .f32) :
    out1_A_3 c i a1 h1 a2 h2 a3 h3 a4 h4 a5 h5 hc x0 x1 x2 = k1_pay4 x0 x1 x2 (k1_pay1 (F := F)) := by
  unfold out1_A_3
  rw [View.read_writes_eq_canon _ _ _ (cover1_A_3 c i a1 h1 a2 h2 a3 h3 a4 h4 a5 h5 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S1x128) hz]

/-- The first block: the second accumulator likewise ends at zero plus the block's column sums of squares. -/
theorem first_sumsq (c : Dev nD) (i : grid1.Coords) (a1 : Memref sig .tc .vmem S5000x128 .f32) (h1 : a1.IsWhole)
    (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S5000x1 .f32) (x2 : Vec F S1x128 .f32) :
    out1_A_4 c i a1 h1 a2 h2 a3 h3 a4 h4 a5 h5 hc x0 x1 x2 = k1_pay5 x0 x1 x2 (k1_pay2 (F := F)) := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S1x128) hz]

end Pieces

/-! ## The stored values at an index -/

/-- The raw value at row k, column q of a block: feature times inverse degree plus bias. -/
def rawAt (x0 : Vec Ideal S5000x128 .f32) (x1 : Vec Ideal S5000x1 .f32) (x2 : Vec Ideal S1x128 .f32) (k : Fin 5000) (q : Fin 128) : EReal :=
  x0 (ix2 k q) * x1 (ix2 k (0 : Fin 1)) + x2 (ix2 (0 : Fin 1) q)

theorem raw_apply (x0 : Vec Ideal S5000x128 .f32) (x1 : Vec Ideal S5000x1 .f32) (x2 : Vec Ideal S1x128 .f32) (k : Fin 5000) (q : Fin 128) :
    k1_pay3 x0 x1 x2 (ix2 k q) = rawAt x0 x1 x2 k q := by
  unfold k1_pay3 rawAt
  simp only [shapeCast_self]
  simp only [mulf_apply, addf_apply, Cert.LibUnitAxes.broadcastTo_a1_ab_apply, broadcastTo_1b_ab_apply]

/-- The value stored into the first accumulator: what it held plus the block's column sum. -/
theorem sum_apply (x0 : Vec Ideal S5000x128 .f32) (x1 : Vec Ideal S5000x1 .f32) (x2 acc : Vec Ideal S1x128 .f32) (u : Fin 1) (q : Fin 128) :
    k1_pay4 x0 x1 x2 acc (ix2 u q) = acc (ix2 u q) + ∑ k : Fin 5000, rawAt x0 x1 x2 k q := by
  unfold k1_pay4
  simp only [shapeCast_self]
  rw [addf_apply, shapeCast_a_1a_apply]
  refine congrArg (acc (ix2 u q) + ·) ?_
  refine (multiReduction_add_col (k1_pay3 x0 x1 x2) 0x00000000#32 reduces_S5000x128_S128 (.inl rfl) rfl q).trans ?_
  exact Finset.sum_congr rfl fun k _ => raw_apply x0 x1 x2 k q

/-- The value stored into the second accumulator: what it held plus the block's column sum of squares. -/
theorem sumsq_apply (x0 : Vec Ideal S5000x128 .f32) (x1 : Vec Ideal S5000x1 .f32) (x2 acc : Vec Ideal S1x128 .f32) (u : Fin 1) (q : Fin 128) :
    k1_pay5 x0 x1 x2 acc (ix2 u q) = acc (ix2 u q) + ∑ k : Fin 5000, rawAt x0 x1 x2 k q * rawAt x0 x1 x2 k q := by
  unfold k1_pay5
  simp only [shapeCast_self]
  rw [addf_apply, shapeCast_a_1a_apply]
  refine congrArg (acc (ix2 u q) + ·) ?_
  refine (multiReduction_add_col (mulf (k1_pay3 x0 x1 x2) (k1_pay3 x0 x1 x2)) 0x00000000#32 reduces_S5000x128_S128 (.inl rfl) rfl q).trans ?_
  exact Finset.sum_congr rfl fun k _ => by rw [mulf_apply, raw_apply]

theorem zero1_apply (i : S1x128.Idx) : k1_pay1 (F := Ideal) i = 0 := Cert.Lits.zero
theorem zero2_apply (i : S1x128.Idx) : k1_pay2 (F := Ideal) i = 0 := Cert.Lits.zero

/-! ## The accumulators after each block, and the whole arrays -/

variable (V : (c : Dev nD) → (b : Ref sig .tc) → Buf (Elt Ideal) ((c : Thread nD τ).loc b))

/-- Block s's column sum at column q (zero past the grid: never used). -/
def blockSum (c : Dev nD) (s : ℕ) (q : Fin 128) : EReal :=
  if h : s < cfg1.N then ∑ k : Fin 5000, rawAt (iblk1 V c 0 ⟨s, h⟩) (iblk1 V c 1 ⟨s, h⟩) (iblk1 V c 2 ⟨s, h⟩) k q else 0

/-- Block s's column sum of squares at column q. -/
def blockSumSq (c : Dev nD) (s : ℕ) (q : Fin 128) : EReal :=
  if h : s < cfg1.N then ∑ k : Fin 5000, rawAt (iblk1 V c 0 ⟨s, h⟩) (iblk1 V c 1 ⟨s, h⟩) (iblk1 V c 2 ⟨s, h⟩) k q
      * rawAt (iblk1 V c 0 ⟨s, h⟩) (iblk1 V c 1 ⟨s, h⟩) (iblk1 V c 2 ⟨s, h⟩) k q else 0

/-- After block n the accumulators hold the sums of the block sums so far: by induction on the block. -/
theorem acc_apply (c : Dev nD) : ∀ (n : ℕ) (h : n < cfg1.N) (u : Fin 1) (q : Fin 128),
    (outsAt1 V c n h).1 (ix2 u q) = ∑ s ∈ Finset.range (n + 1), blockSum V c s q
    ∧ (outsAt1 V c n h).2 (ix2 u q) = ∑ s ∈ Finset.range (n + 1), blockSumSq V c s q
  | 0, h, u, q => by
    rw [outsAt1_A V c ⟨0, h⟩ rfl]
    dsimp only
    rw [first_sum, first_sumsq, sum_apply, sumsq_apply, zero1_apply, zero2_apply, Finset.sum_range_one, Finset.sum_range_one]
    simp only [zero_add]
    unfold blockSum blockSumSq
    rw [dif_pos h, dif_pos h]
    exact ⟨rfl, rfl⟩
  | n + 1, h, u, q => by
    have hN : cfg1.N = 20 := N_1
    have hB : ¬(⟨n + 1, h⟩ : Fin cfg1.N).val % 20 = 0 := by dsimp only; omega
    obtain ⟨ih1, ih2⟩ := acc_apply c n (Nat.lt_of_succ_lt h) u q
    rw [outsAt1_B V c ⟨n + 1, h⟩ hB]
    dsimp only
    rw [later_sum, later_sumsq, sum_apply, sumsq_apply, Finset.sum_range_succ _ (n + 1), Finset.sum_range_succ _ (n + 1)]
    refine ⟨?_, ?_⟩
    · refine congrArg₂ (· + ·) ih1 ?_
      unfold blockSum
      rw [dif_pos h]
    · refine congrArg₂ (· + ·) ih2 ?_
      unfold blockSumSq
      rw [dif_pos h]

/-- The index maps over the grid: the feature and column windows move down the rows; the bias row and the two
    accumulators stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The raw value of node n at column q, from the whole arrays. -/
def rawOf (A : S100000x128.Idx → Elt Ideal .f32) (d : S100000x1.Idx → Elt Ideal .f32) (b : S1x128.Idx → Elt Ideal .f32)
    (n : Fin 100000) (q : Fin 128) : EReal :=
  A (ix2 n q) * d (ix2 n (0 : Fin 1)) + b (ix2 (0 : Fin 1) q)

/-- Row k of block t is node 5000·t + k: the block's raw value there is the whole arrays' raw value. -/
theorem block_raw (c : Dev nD) (t : Fin cfg1.N) (k : Fin 5000) (q : Fin 128) (hn : t.val * 5000 + k.val < 100000) :
    rawAt (iblk1 V c 0 t) (iblk1 V c 1 t) (iblk1 V c 2 t) k q
      = rawOf (V c main_v54) (V c main_v55) (V c main_v56) ⟨t.val * 5000 + k.val, hn⟩ q := by
  obtain ⟨a0, a1, b0, b1, c0, c1, -, -, -, -⟩ := idx_facts t
  unfold rawAt rawOf
  have h0 : iblk1 V c 0 t (ix2 k q) = V c main_v54 (ix2 (⟨t.val * 5000 + k.val, hn⟩ : Fin 100000) q) := by
    unfold iblk1
    rw [View.read_apply]
    show V c main_v54 (((cfg1.win 0).blk t).view.emb (ix2 k q)) = _
    refine congrArg (V c main_v54) ?_
    funext a; apply Fin.ext
    match a with
    | ⟨0, _⟩ => show win1_0.index t (0 : Fin 2) * 5000 + 1 * k.val = t.val * 5000 + k.val; omega
    | ⟨1, _⟩ => show win1_0.index t (1 : Fin 2) * 128 + 1 * q.val = q.val; omega
  have h1 : iblk1 V c 1 t (ix2 k (0 : Fin 1)) = V c main_v55 (ix2 (⟨t.val * 5000 + k.val, hn⟩ : Fin 100000) (0 : Fin 1)) := by
    unfold iblk1
    rw [View.read_apply]
    show V c main_v55 (((cfg1.win 1).blk t).view.emb (ix2 k (0 : Fin 1))) = _
    refine congrArg (V c main_v55) ?_
    funext a; apply Fin.ext
    match a with
    | ⟨0, _⟩ => show win1_1.index t (0 : Fin 2) * 5000 + 1 * k.val = t.val * 5000 + k.val; omega
    | ⟨1, _⟩ => show win1_1.index t (1 : Fin 2) * 1 + 1 * ((0 : Fin 1) : ℕ) = ((0 : Fin 1) : ℕ); omega
  have h2 : iblk1 V c 2 t (ix2 (0 : Fin 1) q) = V c main_v56 (ix2 (0 : Fin 1) q) := by
    unfold iblk1
    rw [View.read_apply]
    show V c main_v56 (((cfg1.win 2).blk t).view.emb (ix2 (0 : Fin 1) q)) = _
    refine congrArg (V c main_v56) ?_
    funext a; apply Fin.ext
    match a with
    | ⟨0, _⟩ => show win1_2.index t (0 : Fin 2) * 1 + 1 * ((0 : Fin 1) : ℕ) = ((0 : Fin 1) : ℕ); omega
    | ⟨1, _⟩ => show win1_2.index t (1 : Fin 2) * 128 + 1 * q.val = q.val; omega
  rw [h0, h1, h2]

/-- The column sums of the raw values over all nodes, as the [1, 128] array the kernel returns. -/
def colSums (A : S100000x128.Idx → Elt Ideal .f32) (d : S100000x1.Idx → Elt Ideal .f32) (b : S1x128.Idx → Elt Ideal .f32) :
    S1x128.Idx → Elt Ideal .f32 :=
  fun i => ∑ n : Fin 100000, rawOf A d b n (i 1 : Fin 128)

/-- The column sums of the squared raw values over all nodes. -/
def colSumSqs (A : S100000x128.Idx → Elt Ideal .f32) (d : S100000x1.Idx → Elt Ideal .f32) (b : S1x128.Idx → Elt Ideal .f32) :
    S1x128.Idx → Elt Ideal .f32 :=
  fun i => ∑ n : Fin 100000, rawOf A d b n (i 1 : Fin 128) * rawOf A d b n (i 1 : Fin 128)

theorem colSums_entry (A : S100000x128.Idx → Elt Ideal .f32) (d : S100000x1.Idx → Elt Ideal .f32) (b : S1x128.Idx → Elt Ideal .f32)
    (u : Fin 1) (q : Fin 128) : colSums A d b (ix2 u q) = ∑ n : Fin 100000, rawOf A d b n q := rfl
theorem colSumSqs_entry (A : S100000x128.Idx → Elt Ideal .f32) (d : S100000x1.Idx → Elt Ideal .f32) (b : S1x128.Idx → Elt Ideal .f32)
    (u : Fin 1) (q : Fin 128) : colSumSqs A d b (ix2 u q) = ∑ n : Fin 100000, rawOf A d b n q * rawOf A d b n q := rfl

/-- The twenty block sums added up are the sum over all nodes. -/
theorem blocks_total (c : Dev nD) (q : Fin 128) :
    ∑ s ∈ Finset.range 20, blockSum V c s q = ∑ n : Fin 100000, rawOf (V c main_v54) (V c main_v55) (V c main_v56) n q := by
  have hN : cfg1.N = 20 := N_1
  rw [← Cert.LibBlockSums.sum_blocks 20 5000 100000 rfl fun n => rawOf (V c main_v54) (V c main_v55) (V c main_v56) n q]
  refine Finset.sum_congr rfl fun s hs => ?_
  have hs' : s < cfg1.N := by rw [hN]; exact Finset.mem_range.mp hs
  have hs20 : s < 20 := Finset.mem_range.mp hs
  unfold blockSum
  rw [dif_pos hs']
  refine Finset.sum_congr rfl fun k _ => ?_
  have hk : k.val < 5000 := k.isLt
  have hn : s * 5000 + k.val < 100000 := by omega
  rw [dif_pos hn]
  exact block_raw V c ⟨s, hs'⟩ k q hn

theorem blocks_total_sq (c : Dev nD) (q : Fin 128) :
    ∑ s ∈ Finset.range 20, blockSumSq V c s q
      = ∑ n : Fin 100000, rawOf (V c main_v54) (V c main_v55) (V c main_v56) n q * rawOf (V c main_v54) (V c main_v55) (V c main_v56) n q := by
  have hN : cfg1.N = 20 := N_1
  rw [← Cert.LibBlockSums.sum_blocks 20 5000 100000 rfl fun n =>
    rawOf (V c main_v54) (V c main_v55) (V c main_v56) n q * rawOf (V c main_v54) (V c main_v55) (V c main_v56) n q]
  refine Finset.sum_congr rfl fun s hs => ?_
  have hs' : s < cfg1.N := by rw [hN]; exact Finset.mem_range.mp hs
  have hs20 : s < 20 := Finset.mem_range.mp hs
  unfold blockSumSq
  rw [dif_pos hs']
  refine Finset.sum_congr rfl fun k _ => ?_
  have hk : k.val < 5000 := k.isLt
  have hn : s * 5000 + k.val < 100000 := by omega
  rw [dif_pos hn, block_raw V c ⟨s, hs'⟩ k q hn]

/-- The one write-back of the first accumulator, at the last block, writes the column sums. -/
theorem flushed_sum (c : Dev nD) (t : Fin cfg1.N) (hf : (cfg1.win 3).flush t = true) :
    (dat1 V c).flushed 3 t = ((cfg1.win 3).blk t).view.read (Elt Ideal) (colSums (V c main_v54) (V c main_v55) (V c main_v56)) := by
  have hN : cfg1.N = 20 := N_1
  have h19 : t.val = 19 := by have := (flush1_3 t).mp hf; have := t.isLt; omega
  obtain ⟨-, -, -, -, -, -, d0, d1, -, -⟩ := idx_facts t
  show (cfg1.win 3).cut (grid1.coords t) ((dat1 V c).after 3 t) = _
  rw [after1_3]
  funext j
  obtain ⟨u, q, rfl⟩ : ∃ (u : Fin 1) (q : Fin 128), j = ix2 u q := ⟨j 0, j 1, eq_ix2 j⟩
  refine ((acc_apply V c t.val t.isLt u q).1).trans ?_
  rw [View.read_apply, h19, blocks_total]
  unfold colSums
  have hq : ((((cfg1.win 3).blk t).view.emb (ix2 u q)) 1 : Fin 128) = q := by
    apply Fin.ext
    show win1_3.index t (1 : Fin 2) * 128 + 1 * q.val = q.val
    omega
  rw [hq]
  exact (cast_eq _ _).symm

/-- The one write-back of the second accumulator writes the column sums of squares. -/
theorem flushed_sumsq (c : Dev nD) (t : Fin cfg1.N) (hf : (cfg1.win 4).flush t = true) :
    (dat1 V c).flushed 4 t = ((cfg1.win 4).blk t).view.read (Elt Ideal) (colSumSqs (V c main_v54) (V c main_v55) (V c main_v56)) := by
  have hN : cfg1.N = 20 := N_1
  have h19 : t.val = 19 := by have := (flush1_4 t).mp hf; have := t.isLt; omega
  obtain ⟨-, -, -, -, -, -, -, -, f0, f1⟩ := idx_facts t
  show (cfg1.win 4).cut (grid1.coords t) ((dat1 V c).after 4 t) = _
  rw [after1_4]
  funext j
  obtain ⟨u, q, rfl⟩ : ∃ (u : Fin 1) (q : Fin 128), j = ix2 u q := ⟨j 0, j 1, eq_ix2 j⟩
  refine ((acc_apply V c t.val t.isLt u q).2).trans ?_
  rw [View.read_apply, h19, blocks_total_sq]
  unfold colSumSqs
  have hq : ((((cfg1.win 4).blk t).view.emb (ix2 u q)) 1 : Fin 128) = q := by
    apply Fin.ext
    show win1_4.index t (1 : Fin 2) * 128 + 1 * q.val = q.val
    omega
  rw [hq]
  exact (cast_eq _ _).symm

theorem mem_blk3 (t : Fin cfg1.N) (i : S1x128.Idx) :
    i ∈ ((cfg1.win 3).blk t).view.set ↔ ∀ a : Fin 2, win1_3.index t a * S1x128.size a ≤ (i a).val ∧ (i a).val < win1_3.index t a * S1x128.size a + S1x128.size a := by
  show i ∈ ((View.whole main_v57_0).slice (win1_3.rect t)).set ↔ _
  rw [View.set_slice_whole, Rect.mem_set_unit]
  exact Iff.rfl

theorem mem_blk4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v57_1).slice (win1_4.rect t)).set ↔ _
  rw [View.set_slice_whole, Rect.mem_set_unit]
  exact Iff.rfl

/-- The last point, as a point of the grid. -/
def last : Fin cfg1.N := ⟨19, by rw [show cfg1.N = 20 from N_1]; decide⟩

/-- The first result array after the kernel: the column sums. -/
theorem final_sum (c : Dev nD) : (dat1 V c).arrAt 3 cfg1.N = colSums (V c main_v54) (V c main_v55) (V c main_v56) :=
  (dat1 V c).arrAt_eq_of_cover 3 _ (flushed_sum V c) fun i => ⟨last, (flush1_3 last).mpr rfl, by
    rw [mem_blk3]
    obtain ⟨-, -, -, -, -, -, d0, d1, -, -⟩ := idx_facts last
    have hi0 : (i 0).val < 1 := (i 0).isLt
    have hi1 : (i 1).val < 128 := (i 1).isLt
    intro a
    match a with
    | ⟨0, _⟩ => show win1_3.index last (0 : Fin 2) * 1 ≤ (i 0).val ∧ (i 0).val < win1_3.index last (0 : Fin 2) * 1 + 1; omega
    | ⟨1, _⟩ => show win1_3.index last (1 : Fin 2) * 128 ≤ (i 1).val ∧ (i 1).val < win1_3.index last (1 : Fin 2) * 128 + 128; omega⟩

/-- The second result array after the kernel: the column sums of squares. -/
theorem final_sumsq (c : Dev nD) : (dat1 V c).arrAt 4 cfg1.N = colSumSqs (V c main_v54) (V c main_v55) (V c main_v56) :=
  (dat1 V c).arrAt_eq_of_cover 4 _ (flushed_sumsq V c) fun i => ⟨last, (flush1_4 last).mpr rfl, by
    rw [mem_blk4]
    obtain ⟨-, -, -, -, -, -, -, -, f0, f1⟩ := idx_facts last
    have hi0 : (i 0).val < 1 := (i 0).isLt
    have hi1 : (i 1).val < 128 := (i 1).isLt
    intro a
    match a with
    | ⟨0, _⟩ => show win1_4.index last (0 : Fin 2) * 1 ≤ (i 0).val ∧ (i 0).val < win1_4.index last (0 : Fin 2) * 1 + 1; omega
    | ⟨1, _⟩ => show win1_4.index last (1 : Fin 2) * 128 ≤ (i 1).val ∧ (i 1).val < win1_4.index last (1 : Fin 2) * 128 + 128; omega⟩

end Cert.KernelIdeal.Stats

end
-- ==== Proof.Region2.lean ====
/-
  The third kernel read as one whole-array function.

  The kernel walks the node rows in twenty blocks of 5000. At a block it reads the block of the aggregated features
  A, the matching 5000 entries of the inverse degree column d, and three rows shared by all blocks (the bias b, the
  scale s and the shift h), and stores, at row p and column q of the block,
      n · logistic n,   n = (A(p,q) · d(p) + b(q)) · s(q) + h(q).
  The blocks tile the [100000, 128] result, each written once, so the result array is that expression of the whole
  arrays at every index: block t, row p is node 5000·t + p.
-/
import proofs.«117371_j55035710931434_2_alg».proof.Proof.Gen.KernelIdeal.Frame
import proofs.«117371_j55035710931434_2_alg».proof.Proof.LibUnitAxes
import Idealize.ShloMosaic.Lib.Pipeline.Value
import Idealize.ShloMosaic.Lib.ValueIdx
import Idealize.ShloMosaic.Lib.ValueLayout

noncomputable section

namespace Cert.KernelIdeal.Gate

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One entry of the result from the five numbers it depends on: the normalised value times its logistic. -/
def gate (a d b s h : EReal) : EReal := ((a * d + b) * s + h) * Ideal.logistic ((a * d + b) * s + h)

/-- The result array as a function of the five whole arrays the kernel reads: entry (n, q) from A(n, q), the column
    entry d(n) and the three row entries at q. -/
def gated (A : S100000x128.Idx → Elt Ideal .f32) (d : S100000x1.Idx → Elt Ideal .f32)
    (b s h : S1x128.Idx → Elt Ideal .f32) : S100000x128.Idx → Elt Ideal .f32 :=
  fun i => gate (A i) (d (ix2 (i 0 : Fin 100000) (0 : Fin 1))) (b (ix2 (0 : Fin 1) (i 1 : Fin 128)))
    (s (ix2 (0 : Fin 1) (i 1 : Fin 128))) (h (ix2 (0 : Fin 1) (i 1 : Fin 128)))

/-- The gated array at node n, column q. -/
theorem gated_entry (A : S100000x128.Idx → Elt Ideal .f32) (d : S100000x1.Idx → Elt Ideal .f32) (b s h : S1x128.Idx → Elt Ideal .f32)
    (n : Fin 100000) (q : Fin 128) :
    gated A d b s h (ix2 n q) = gate (A (ix2 n q)) (d (ix2 n (0 : Fin 1))) (b (ix2 (0 : Fin 1) q)) (s (ix2 (0 : Fin 1) q)) (h (ix2 (0 : Fin 1) q)) := rfl

theorem logistic_apply {s : Shape} {φ : FTy} (x : FVec Ideal s φ) (i : s.Idx) : logistic x i = Ideal.logistic (x i) := rfl

/-- The body's stored value at row p, column q of the block, from the five loaded blocks. -/
theorem stored_apply (x0 : Vec Ideal S5000x128 .f32) (x1 : Vec Ideal S5000x1 .f32) (x2 x3 x4 : Vec Ideal S1x128 .f32)
    (p : Fin 5000) (q : Fin 128) :
    k2_pay1 x0 x1 x2 x3 x4 (ix2 p q)
      = gate (x0 (ix2 p q)) (x1 (ix2 p (0 : Fin 1))) (x2 (ix2 (0 : Fin 1) q)) (x3 (ix2 (0 : Fin 1) q)) (x4 (ix2 (0 : Fin 1) q)) := by
  unfold k2_pay1 gate
  simp only [shapeCast_self]
  simp only [mulf_apply, addf_apply, logistic_apply, Cert.LibUnitAxes.broadcastTo_a1_ab_apply, broadcastTo_1b_ab_apply]

/-- The index maps over the grid: the feature window, the column window and the output window move together down the
    rows; the three row windows stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p, column q of block t of the result is the array's entry at node 5000·t + p, column q. -/
theorem emb_out (t : Fin cfg2.N) (p : Fin 5000) (q : Fin 128) (hn : t.val * 5000 + p.val < 100000) :
    ((cfg2.win 5).blk t).view.emb (ix2 p q) = (ix2 (⟨t.val * 5000 + p.val, hn⟩ : Fin 100000) q : S100000x128.Idx) := by
  obtain ⟨-, -, -, -, -, -, -, -, -, -, g0, g1⟩ := idx_facts t
  funext a; apply Fin.ext
  match a with
  | ⟨0, _⟩ => show win2_5.index t (0 : Fin 2) * 5000 + 1 * p.val = t.val * 5000 + p.val; omega
  | ⟨1, _⟩ => show win2_5.index t (1 : Fin 2) * 128 + 1 * q.val = q.val; omega

/-- The feature block at point t, row p, is the feature array at node 5000·t + p. -/
theorem read_feat (c : Dev nD) (t : Fin cfg2.N) (p : Fin 5000) (q : Fin 128) (hn : t.val * 5000 + p.val < 100000) :
    iblk2 V c 0 t (ix2 p q) = V c main_v54 (ix2 (⟨t.val * 5000 + p.val, hn⟩ : Fin 100000) q) := by
  obtain ⟨a0, a1, -, -, -, -, -, -, -, -, -, -⟩ := idx_facts t
  unfold iblk2
  rw [View.read_apply]
  show V c main_v54 (((cfg2.win 0).blk t).view.emb (ix2 p q)) = _
  refine congrArg (V c main_v54) ?_
  funext a; apply Fin.ext
  match a with
  | ⟨0, _⟩ => show win2_0.index t (0 : Fin 2) * 5000 + 1 * p.val = t.val * 5000 + p.val; omega
  | ⟨1, _⟩ => show win2_0.index t (1 : Fin 2) * 128 + 1 * q.val = q.val; omega

/-- The column block at point t, row p, is the column at node 5000·t + p. -/
theorem read_col (c : Dev nD) (t : Fin cfg2.N) (p : Fin 5000) (hn : t.val * 5000 + p.val < 100000) :
    iblk2 V c 1 t (ix2 p (0 : Fin 1)) = V c main_v74 (ix2 (⟨t.val * 5000 + p.val, hn⟩ : Fin 100000) (0 : Fin 1)) := by
  obtain ⟨-, -, b0, b1, -, -, -, -, -, -, -, -⟩ := idx_facts t
  unfold iblk2
  rw [View.read_apply]
  show V c main_v74 (((cfg2.win 1).blk t).view.emb (ix2 p (0 : Fin 1))) = _
  refine congrArg (V c main_v74) ?_
  funext a; apply Fin.ext
  match a with
  | ⟨0, _⟩ => show win2_1.index t (0 : Fin 2) * 5000 + 1 * p.val = t.val * 5000 + p.val; omega
  | ⟨1, _⟩ => show win2_1.index t (1 : Fin 2) * 1 + 1 * ((0 : Fin 1) : ℕ) = ((0 : Fin 1) : ℕ); omega

/-- The bias row's block is the row itself at every point. -/
theorem read_bias (c : Dev nD) (t : Fin cfg2.N) (q : Fin 128) :
    iblk2 V c 2 t (ix2 (0 : Fin 1) q) = V c main_v75 (ix2 (0 : Fin 1) q) := by
  obtain ⟨-, -, -, -, c0, c1, -, -, -, -, -, -⟩ := idx_facts t
  unfold iblk2
  rw [View.read_apply]
  show V c main_v75 (((cfg2.win 2).blk t).view.emb (ix2 (0 : Fin 1) q)) = _
  refine congrArg (V c main_v75) ?_
  funext a; apply Fin.ext
  match a with
  | ⟨0, _⟩ => show win2_2.index t (0 : Fin 2) * 1 + 1 * ((0 : Fin 1) : ℕ) = ((0 : Fin 1) : ℕ); omega
  | ⟨1, _⟩ => show win2_2.index t (1 : Fin 2) * 128 + 1 * q.val = q.val; omega

/-- The scale row's block is the row itself at every point. -/
theorem read_scale (c : Dev nD) (t : Fin cfg2.N) (q : Fin 128) :
    iblk2 V c 3 t (ix2 (0 : Fin 1) q) = V c main_v76 (ix2 (0 : Fin 1) q) := by
  obtain ⟨-, -, -, -, -, -, d0, d1, -, -, -, -⟩ := idx_facts t
  unfold iblk2
  rw [View.read_apply]
  show V c main_v76 (((cfg2.win 3).blk t).view.emb (ix2 (0 : Fin 1) q)) = _
  refine congrArg (V c main_v76) ?_
  funext a; apply Fin.ext
  match a with
  | ⟨0, _⟩ => show win2_3.index t (0 : Fin 2) * 1 + 1 * ((0 : Fin 1) : ℕ) = ((0 : Fin 1) : ℕ); omega
  | ⟨1, _⟩ => show win2_3.index t (1 : Fin 2) * 128 + 1 * q.val = q.val; omega

/-- The shift row's block is the row itself at every point. -/
theorem read_shift (c : Dev nD) (t : Fin cfg2.N) (q : Fin 128) :
    iblk2 V c 4 t (ix2 (0 : Fin 1) q) = V c main_v77 (ix2 (0 : Fin 1) q) := by
  obtain ⟨-, -, -, -, -, -, -, -, f0, f1, -, -⟩ := idx_facts t
  unfold iblk2
  rw [View.read_apply]
  show V c main_v77 (((cfg2.win 4).blk t).view.emb (ix2 (0 : Fin 1) q)) = _
  refine congrArg (V c main_v77) ?_
  funext a; apply Fin.ext
  match a with
  | ⟨0, _⟩ => show win2_4.index t (0 : Fin 2) * 1 + 1 * ((0 : Fin 1) : ℕ) = ((0 : Fin 1) : ℕ); omega
  | ⟨1, _⟩ => show win2_4.index t (1 : Fin 2) * 128 + 1 * q.val = q.val; omega

/-- What point t writes back is block t of the gated array of the arrays as the kernel finds them. -/
theorem flushed_eq (c : Dev nD) (t : Fin cfg2.N) :
    (dat2 V c).flushed 5 t = ((cfg2.win 5).blk t).view.read (Elt Ideal)
      (gated (V c main_v54) (V c main_v74) (V c main_v75) (V c main_v76) (V c main_v77)) := by
  show (cfg2.win 5).cut (grid2.coords t) ((dat2 V c).after 5 t) = _
  rw [after2_5]
  unfold out2_5
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  have hN : cfg2.N = 20 := N_2
  have hn : t.val * 5000 + p.val < 100000 := by have := t.isLt; have := p.isLt; omega
  refine (stored_apply (iblk2 V c 0 t) (iblk2 V c 1 t) (iblk2 V c 2 t) (iblk2 V c 3 t) (iblk2 V c 4 t) p q).trans ?_
  rw [View.read_apply, emb_out t p q hn, read_feat V c t p q hn, read_col V c t p hn, read_bias V c t q, read_scale V c t q,
    read_shift V c t q]
  rfl

/-- An index of the array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v78).slice (win2_5.rect t)).set ↔ _
  rw [View.set_slice_whole, Rect.mem_set_unit]
  exact Iff.rfl

/-- Every node row lies in the block of the point its number divided by 5000 names. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_5 _, ?_⟩
  rw [mem_blk]
  obtain ⟨-, -, -, -, -, -, -, -, -, -, g0, g1⟩ := idx_facts ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [g0]; dsimp only; omega
  | ⟨1, _⟩ =>
    show win2_5.index _ (1 : Fin 2) * 128 ≤ (i 1).val ∧ (i 1).val < win2_5.index _ (1 : Fin 2) * 128 + 128
    rw [g1]; omega

/-- The array after the kernel: the gated array. -/
theorem final (c : Dev nD) : (dat2 V c).arrAt 5 cfg2.N
    = gated (V c main_v54) (V c main_v74) (V c main_v75) (V c main_v76) (V c main_v77) :=
  (dat2 V c).arrAt_eq_of_cover 5 _ (fun t _ => flushed_eq V c t) cover

end Cert.KernelIdeal.Gate

end
-- ==== Proof.KChain.lean ====
/-
  The array operations between the first two kernels, which both programs share.

  Between the projection and the statistics kernel the program computes, from the edge list, the node and hyperedge
  degrees, their guarded reciprocals, the hyperedge features (a gather of the projected node features, a segment
  sum, a scaling) and the aggregated node features (a gather, a segment sum). The reference applies the same
  operations, in the same order, to its own projection; the program only narrows two intermediate arrays to a
  shorter float format and widens them back, which on the extended reals changes nothing. So, once the three arrays
  these operations start from are the reference's (the two index rows and the projection), each array they produce is
  the reference's array of the same name: stage by stage below, each stage one operation or a few over the stages
  before it; then the aggregated features, the guarded inverse degree, and, reshaped, the inverse degree as a column
  and the bias as a row, read off the program's own fold.
-/
import proofs.«117371_j55035710931434_2_alg».proof.Proof.Gen.KernelIdeal.Frame
import proofs.«117371_j55035710931434_2_alg».proof.Proof.RefRead
import Idealize.ShloMosaic.Lib.StableHlo.Run

noncomputable section

namespace Cert.KernelIdeal.Between

open Cert.KernelIdeal Cert.KernelIdeal.Gen
open Idealize.ShloMosaic Idealize.ShloMosaic.TcCoe Idealize.SL.Sem Idealize.ShloMosaic.StableHlo
open Cert.ReferenceIdeal.Read

/-! ## A value written to, or read from, the buffer of its own type is the value -/

section Casts
variable (u : (⟨S_, .f32⟩ : BufTy).Contents (Elt Ideal)) (v : (⟨S100000, .f32⟩ : BufTy).Contents (Elt Ideal))
  (b : (⟨S100000, .i1⟩ : BufTy).Contents (Elt Ideal)) (v' : (⟨S50000, .f32⟩ : BufTy).Contents (Elt Ideal))
  (b' : (⟨S50000, .i1⟩ : BufTy).Contents (Elt Ideal))
theorem at_cst3 : (TRef.of main_cst_3 : TRef sig ⟨S_, .f32⟩).ofBuf u = u := rfl
theorem to_c0v0 : (TRef.of main_call0_v0 : TRef sig ⟨S_, .f32⟩).toBuf u = u := rfl
theorem at_c0v0 : (TRef.of main_call0_v0 : TRef sig ⟨S_, .f32⟩).ofBuf u = u := rfl
theorem to_c0v1 : (TRef.of main_call0_v1 : TRef sig ⟨S100000, .f32⟩).toBuf v = v := rfl
theorem at_c0v1 : (TRef.of main_call0_v1 : TRef sig ⟨S100000, .f32⟩).ofBuf v = v := rfl
theorem at_v16 : (TRef.of main_v16 : TRef sig ⟨S100000, .i1⟩).ofBuf b = b := rfl
theorem at_v18 : (TRef.of main_v18 : TRef sig ⟨S100000, .f32⟩).ofBuf v = v := rfl
theorem to_v19 : (TRef.of main_v19 : TRef sig ⟨S100000, .f32⟩).toBuf v = v := rfl
theorem at_cst8 : (TRef.of main_cst_8 : TRef sig ⟨S_, .f32⟩).ofBuf u = u := rfl
theorem to_c1v0 : (TRef.of main_call1_v0 : TRef sig ⟨S_, .f32⟩).toBuf u = u := rfl
theorem at_c1v0 : (TRef.of main_call1_v0 : TRef sig ⟨S_, .f32⟩).ofBuf u = u := rfl
theorem to_c1v1 : (TRef.of main_call1_v1 : TRef sig ⟨S50000, .f32⟩).toBuf v' = v' := rfl
theorem at_c1v1 : (TRef.of main_call1_v1 : TRef sig ⟨S50000, .f32⟩).ofBuf v' = v' := rfl
theorem at_v25 : (TRef.of main_v25 : TRef sig ⟨S50000, .i1⟩).ofBuf b' = b' := rfl
theorem at_v27 : (TRef.of main_v27 : TRef sig ⟨S50000, .f32⟩).ofBuf v' = v' := rfl
theorem to_v28 : (TRef.of main_v28 : TRef sig ⟨S50000, .f32⟩).toBuf v' = v' := rfl
end Casts

/-! ## The stages -/

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S50000, .f32⟩ : BufTy).Contents (Elt Ideal))
  (x3 : (⟨Cert.ReferenceIdeal.S128x128, .f32⟩ : BufTy).Contents (Elt Ideal))

/-- The hyperedge indices, negative ones wrapped. -/
theorem st_edge : select (cmpi CmpIPredicate.slt (val_main_v3 x1) (broadcastInDim S1600000 ![] bcast_S_S1600000 (constantI S_ 32 0#32)))
      (addi (val_main_v3 x1) (broadcastInDim S1600000 ![] bcast_S_S1600000 (constantI S_ 32 50000#32))) (val_main_v3 x1)
    = val_main_v9 x1 := rfl
/-- The node indices, negative ones wrapped. -/
theorem st_node : select (cmpi CmpIPredicate.slt (val_main_v1 x1) (broadcastInDim S1600000 ![] bcast_S_S1600000 (constantI S_ 32 0#32)))
      (addi (val_main_v1 x1) (broadcastInDim S1600000 ![] bcast_S_S1600000 (constantI S_ 32 100000#32))) (val_main_v1 x1)
    = val_main_v33 x1 := rfl
/-- The node indices as scatter positions. -/
theorem st_nodecol : broadcastInDim S1600000x1 ![0] bcast_S1600000_S1600000x1_0 (val_main_v1 x1) = val_main_v13 x1 := rfl
/-- The hyperedge indices as scatter positions. -/
theorem st_edgecol : broadcastInDim S1600000x1 ![0] bcast_S1600000_S1600000x1_0 (val_main_v3 x1) = val_main_v22 x1 := rfl
/-- The hyperedge weights gathered along the edge list. -/
theorem st_wts : Host.gather gather_S50000_S1600000x1_S1600000_n_0_n_n_0_1_1 x2
      (broadcastInDim S1600000x1 ![0] bcast_S1600000_S1600000x1_0 (val_main_v9 x1)) = val_main_v11 x1 x2 := rfl
/-- The weighted node degree. -/
theorem st_deg : Host.scatterAdd scatter_S100000_S1600000x1_S1600000_n_0_0_1
      (broadcastInDim S100000 ![] bcast_S_S100000 (constant (F := Ideal) S_ FTy.f32 0x00000000#32))
      (val_main_v13 x1) (val_main_v11 x1 x2) = val_main_v14 x1 x2 := rfl
theorem st_degpos : cmpf CmpFPredicate.ogt (val_main_v14 x1 x2)
      (broadcastInDim S100000 ![] bcast_S_S100000 (constant (F := Ideal) S_ FTy.f32 0x00000000#32)) = val_main_v16 x1 x2 := rfl
theorem st_deginv : Host.divf (broadcastInDim S100000 ![] bcast_S_S100000 (constant (F := Ideal) S_ FTy.f32 0x3F800000#32))
      (val_main_v14 x1 x2) = val_main_v18 x1 x2 := rfl
/-- The guarded inverse node degree. -/
theorem st_dinv : select (val_main_v16 x1 x2) (val_main_v18 x1 x2)
      (broadcastInDim S100000 ![] bcast_S_S100000 (id (constant (F := Ideal) S_ FTy.f32 0x00000000#32))) = val_main_v19 x1 x2 := rfl
/-- The hyperedge size. -/
theorem st_size : Host.scatterAdd scatter_S50000_S1600000x1_S1600000_n_0_0_1
      (broadcastInDim S50000 ![] bcast_S_S50000 (constant (F := Ideal) S_ FTy.f32 0x00000000#32))
      (val_main_v22 x1) (broadcastInDim S1600000 ![] bcast_S_S1600000 (constant (F := Ideal) S_ FTy.f32 0x3F800000#32))
    = val_main_v23 x1 := rfl
theorem st_sizepos : cmpf CmpFPredicate.ogt (val_main_v23 (F := Ideal) x1)
      (broadcastInDim S50000 ![] bcast_S_S50000 (constant (F := Ideal) S_ FTy.f32 0x00000000#32)) = val_main_v25 x1 := rfl
theorem st_sizeinv : Host.divf (broadcastInDim S50000 ![] bcast_S_S50000 (constant (F := Ideal) S_ FTy.f32 0x3F800000#32))
      (val_main_v23 x1) = val_main_v27 x1 := rfl
/-- The guarded inverse hyperedge size. -/
theorem st_binv : select (val_main_v25 (F := Ideal) x1) (val_main_v27 x1)
      (broadcastInDim S50000 ![] bcast_S_S50000 (id (constant (F := Ideal) S_ FTy.f32 0x00000000#32))) = val_main_v28 x1 := rfl
/-- Widening or narrowing the float format of an array changes nothing on the extended reals. -/
theorem widen_id {s : Shape} (a : s.Idx → EReal) (h : FTy.bf16.bits < FTy.f32.bits) :
    extf (F := Ideal) (φ := .bf16) .f32 a h = a := rfl
theorem narrow_id {s : Shape} (a : s.Idx → EReal) (h : FTy.bf16.bits < FTy.f32.bits) :
    truncf (F := Ideal) (φ := .f32) .bf16 a h = a := rfl

/-- The two programs' gather and scatter dimension records are the same records. -/
theorem dims_gather_nodes : gather_S100000x128_S1600000x1_S1600000x128_1_0_n_n_0_1_1128
    = Cert.ReferenceIdeal.gather_S100000x128_S1600000x1_S1600000x128_1_0_n_n_0_1_1128 := rfl
theorem dims_gather_edges : gather_S50000x128_S1600000x1_S1600000x128_1_0_n_n_0_1_1128
    = Cert.ReferenceIdeal.gather_S50000x128_S1600000x1_S1600000x128_1_0_n_n_0_1_1128 := rfl
theorem dims_scatter_edges : scatter_S50000x128_S1600000x1_S1600000x128_1_0_0_1
    = Cert.ReferenceIdeal.scatter_S50000x128_S1600000x1_S1600000x128_1_0_0_1 := rfl
theorem dims_scatter_nodes : scatter_S100000x128_S1600000x1_S1600000x128_1_0_0_1
    = Cert.ReferenceIdeal.scatter_S100000x128_S1600000x1_S1600000x128_1_0_0_1 := rfl

/-- The projected features gathered along the edge list (narrow on the way, widened after: the identity here). -/
theorem st_gath1 : extf .f32 (Host.gather gather_S100000x128_S1600000x1_S1600000x128_1_0_n_n_0_1_1128
        (val_main_v4 x0 x3) (broadcastInDim S1600000x1 ![0] bcast_S1600000_S1600000x1_0 (val_main_v33 x1)) : FVec Ideal S1600000x128 .bf16) bitsLt_bf16_f32
    = val_main_v35 x0 x1 x3 := by
  rw [widen_id, dims_gather_nodes]; rfl
/-- Their sums over each hyperedge. -/
theorem st_esum : Host.scatterAdd scatter_S50000x128_S1600000x1_S1600000x128_1_0_0_1
      (broadcastInDim S50000x128 ![] bcast_S_S50000x128 (constant (F := Ideal) S_ FTy.f32 0x00000000#32))
      (val_main_v22 x1) (val_main_v35 x0 x1 x3) = val_main_v38 x0 x1 x3 := by
  rw [dims_scatter_edges]; rfl
theorem st_binvb : broadcastInDim S50000x128 ![0, 1] bcast_S50000x1_S50000x128_0_1
      (broadcastInDim S50000x1 ![0] bcast_S50000_S50000x1_0 (val_main_v28 (F := Ideal) x1)) = val_main_v40 x1 := rfl
/-- The hyperedge features (narrowed for the second gather: the identity here). -/
theorem st_efeat : truncf .bf16 (mulf (val_main_v38 x0 x1 x3) (val_main_v40 x1)) bitsLt_bf16_f32 = val_main_v41 x0 x1 x3 := by
  rw [narrow_id]; rfl
/-- The hyperedge features gathered along the edge list. -/
theorem st_gath2 : extf .f32 (Host.gather gather_S50000x128_S1600000x1_S1600000x128_1_0_n_n_0_1_1128
        (val_main_v41 x0 x1 x3) (broadcastInDim S1600000x1 ![0] bcast_S1600000_S1600000x1_0 (val_main_v9 x1)) : FVec Ideal S1600000x128 .bf16) bitsLt_bf16_f32
    = val_main_v48 x0 x1 x3 := by
  rw [widen_id, dims_gather_edges]; rfl
/-- Their sums over each node: the aggregated features. -/
theorem st_agg : Host.scatterAdd scatter_S100000x128_S1600000x1_S1600000x128_1_0_0_1
      (broadcastInDim S100000x128 ![] bcast_S_S100000x128 (constant (F := Ideal) S_ FTy.f32 0x00000000#32))
      (val_main_v13 x1) (val_main_v48 x0 x1 x3) = val_main_v51 x0 x1 x3 := by
  rw [dims_scatter_nodes]; rfl

/-! ## The program's fold read at the arrays the second kernel takes -/

/-- The five stretches of array operations between the first and the second kernel, from contents `W`. -/
abbrev between (W : Valuation τ sig (Elt Ideal)) : Valuation τ sig (Elt Ideal) :=
  StableHlo.after hostOps1_4 (StableHlo.after hostOps1_3 (StableHlo.after hostOps1_2 (StableHlo.after hostOps1_1 (StableHlo.after hostOps1 W))))

variable (W : Valuation τ sig (Elt Ideal))

set_option maxHeartbeats 4000000 in
/-- The guarded inverse node degree is the reference's. -/
theorem inv_degree
    (h1 : W (Proc.devRef .tc main_v1) = val_main_v1 x1) (h3 : W (Proc.devRef .tc main_v3) = val_main_v3 x1)
    (h2 : W (Proc.devRef .tc main_arg2) = x2) :
    between W (Proc.devRef .tc main_v19) = val_main_v19 x1 x2 := by
  after_results_simp
  rw [h1, h3, h2]
  rw [st_edge, st_nodecol, st_wts, st_deg, st_degpos, st_deginv]
  rw [at_cst3, to_c0v0, at_c0v0, to_c0v1, at_c0v1, at_v16, at_v18, to_v19]
  exact st_dinv x1 x2

set_option maxHeartbeats 4000000 in
/-- The inverse degree as a column is the reference's inverse degree reshaped. -/
theorem inv_degree_col
    (h1 : W (Proc.devRef .tc main_v1) = val_main_v1 x1) (h3 : W (Proc.devRef .tc main_v3) = val_main_v3 x1)
    (h2 : W (Proc.devRef .tc main_arg2) = x2) :
    between W (Proc.devRef .tc main_v55) = shapeCast S100000x1 (val_main_v19 x1 x2) shapeCasts_S100000_S100000x1 := by
  after_results_simp
  rw [h1, h3, h2]
  rw [st_edge, st_nodecol, st_wts, st_deg, st_degpos, st_deginv]
  rw [at_cst3, to_c0v0, at_c0v0, to_c0v1, at_c0v1, at_v16, at_v18, to_v19]
  rw [st_dinv]
  rfl

set_option maxHeartbeats 4000000 in
/-- The bias as a row. -/
theorem bias_row (x4 : (⟨S128, .f32⟩ : BufTy).Contents (Elt Ideal)) (h4 : W (Proc.devRef .tc main_arg4) = x4) :
    between W (Proc.devRef .tc main_v56) = shapeCast S1x128 x4 shapeCasts_S128_S1x128 := by
  after_results_simp
  rw [h4]
  rfl

set_option maxHeartbeats 8000000 in
/-- The aggregated node features are the reference's. -/
theorem aggregated
    (h1 : W (Proc.devRef .tc main_v1) = val_main_v1 x1) (h3 : W (Proc.devRef .tc main_v3) = val_main_v3 x1)
    (h4 : W (Proc.devRef .tc main_v4) = val_main_v4 x0 x3) :
    between W (Proc.devRef .tc main_v54) = val_main_v51 x0 x1 x3 := by
  after_results_simp
  rw [h1, h3, h4]
  rw [st_edge, st_node, st_nodecol, st_edgecol, st_size, st_sizepos, st_sizeinv]
  rw [at_cst8, to_c1v0, at_c1v0, to_c1v1, at_c1v1, at_v25, at_v27, to_v28]
  rw [st_binv, st_gath1, st_esum, st_binvb, st_efeat, st_gath2, st_agg]

/-- The stretches write none of the bias, the scale and the offset arguments. -/
theorem keep_arg4 : between W (Proc.devRef .tc main_arg4) = W (Proc.devRef .tc main_arg4) := by after_results_simp
theorem keep_arg5 : between W (Proc.devRef .tc main_arg5) = W (Proc.devRef .tc main_arg5) := by after_results_simp
theorem keep_arg6 : between W (Proc.devRef .tc main_arg6) = W (Proc.devRef .tc main_arg6) := by after_results_simp

end Cert.KernelIdeal.Between

end
-- ==== Proof.KTail.lean ====
/-
  The array operations between the second and the third kernel.

  From the two [1, 128] accumulators (the column sums S and the column sums of squares Q of the raw values) the
  program forms, per column, the mean S/N, the variance taken as Q/N − mean², cut off below at zero, its
  reciprocal square root after adding epsilon, and folds the batch-norm affine map into one scale  γ · ρ  and one
  shift  β − mean · scale; it reshapes these two, the bias and the inverse degree for the third kernel. Read off
  the program's own fold.
-/
import proofs.«117371_j55035710931434_2_alg».proof.Proof.Gen.KernelIdeal.Frame
import Idealize.ShloMosaic.Lib.StableHlo.Run
import Idealize.ShloMosaic.PureOps.Ideal
import Idealize.ShloMosaic.Lib.ValueIdx
import Idealize.ShloMosaic.Lib.ValueLayout

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx

/-- The number of nodes, as a [128] array. -/
abbrev nodes : FVec Ideal S128 .f32 := broadcastInDim S128 ![] bcast_S_S128 (constant (F := Ideal) S_ .f32 0x47C35000#32)

/-- The column means from the [1, 128] column sums. -/
def meanOf (S : FVec Ideal S1x128 .f32) : FVec Ideal S128 .f32 :=
  Host.divf (shapeCast S128 S shapeCasts_S1x128_S128) nodes

/-- The scale  γ · rsqrt(max(Q/N − mean², 0) + ε)  from the column sums, the column sums of squares and γ. -/
def scaleOf (S Q : FVec Ideal S1x128 .f32) (g : FVec Ideal S128 .f32) : FVec Ideal S128 .f32 :=
  mulf g (Host.rsqrt (addf (maximumf (subf (Host.divf (shapeCast S128 Q shapeCasts_S1x128_S128) nodes) (mulf (meanOf S) (meanOf S)))
      (broadcastInDim S128 ![] bcast_S_S128 (constant (F := Ideal) S_ .f32 0x00000000#32)))
    (broadcastInDim S128 ![] bcast_S_S128 (constant (F := Ideal) S_ .f32 0x3727C5AC#32))))

/-- The shift  β − mean · scale. -/
def shiftOf (S Q : FVec Ideal S1x128 .f32) (g be : FVec Ideal S128 .f32) : FVec Ideal S128 .f32 :=
  subf be (mulf (meanOf S) (scaleOf S Q g))

/-! ## The mean, the scale and the shift at a column -/

theorem mean_entry (S : FVec Ideal S1x128 .f32) (q : Fin 128) :
    meanOf S (ix1 q) = Ideal.div (S (ix2 (0 : Fin 1) q)) (Ideal.ofBits .f32 0x47C35000#32) := by
  unfold meanOf
  show Ideal.div (shapeCast S128 S shapeCasts_S1x128_S128 (ix1 q)) (Ideal.ofBits .f32 0x47C35000#32) = _
  rw [shapeCast_1a_a_apply]

theorem scale_entry (S Q : FVec Ideal S1x128 .f32) (g : FVec Ideal S128 .f32) (q : Fin 128) :
    scaleOf S Q g (ix1 q) = g (ix1 q) * Ideal.rsqrt (max (Ideal.div (Q (ix2 (0 : Fin 1) q)) (Ideal.ofBits .f32 0x47C35000#32)
        - meanOf S (ix1 q) * meanOf S (ix1 q)) (Ideal.ofBits .f32 0x00000000#32) + Ideal.ofBits .f32 0x3727C5AC#32) := by
  unfold scaleOf
  show g (ix1 q) * Ideal.rsqrt (max (Ideal.div (shapeCast S128 Q shapeCasts_S1x128_S128 (ix1 q)) (Ideal.ofBits .f32 0x47C35000#32)
        - meanOf S (ix1 q) * meanOf S (ix1 q)) (Ideal.ofBits .f32 0x00000000#32) + Ideal.ofBits .f32 0x3727C5AC#32) = _
  rw [shapeCast_1a_a_apply]

theorem shift_entry (S Q : FVec Ideal S1x128 .f32) (g be : FVec Ideal S128 .f32) (q : Fin 128) :
    shiftOf S Q g be (ix1 q) = be (ix1 q) - meanOf S (ix1 q) * scaleOf S Q g (ix1 q) := rfl

variable (W : Valuation τ sig (Elt Ideal))

theorem scale_row : StableHlo.after hostOps2 W (Proc.devRef .tc main_v76)
    = shapeCast S1x128 (scaleOf (W (Proc.devRef .tc main_v57_0)) (W (Proc.devRef .tc main_v57_1)) (W (Proc.devRef .tc main_arg5))) shapeCasts_S128_S1x128 := by
  after_results_simp
  rfl

theorem shift_row : StableHlo.after hostOps2 W (Proc.devRef .tc main_v77)
    = shapeCast S1x128 (shiftOf (W (Proc.devRef .tc main_v57_0)) (W (Proc.devRef .tc main_v57_1)) (W (Proc.devRef .tc main_arg5))
        (W (Proc.devRef .tc main_arg6))) shapeCasts_S128_S1x128 := by
  after_results_simp
  rfl

theorem bias_row : StableHlo.after hostOps2 W (Proc.devRef .tc main_v75)
    = shapeCast S1x128 (W (Proc.devRef .tc main_arg4)) shapeCasts_S128_S1x128 := by
  after_results_simp
  rfl

theorem inv_degree_col : StableHlo.after hostOps2 W (Proc.devRef .tc main_v74)
    = shapeCast S100000x1 (W (Proc.devRef .tc main_v19)) shapeCasts_S100000_S100000x1 := by
  after_results_simp
  rfl

theorem keep_feat : StableHlo.after hostOps2 W (Proc.devRef .tc main_v54) = W (Proc.devRef .tc main_v54) := by
  after_results_simp

end Cert.KernelIdeal.Fold

end
-- ==== Proof.KValue.lean ====
/-
  The program's result array as one expression of its seven arguments.

  The fold of the program over the launch memory is opened kernel by kernel. The first kernel leaves the projected
  features, which are the reference's matrix product. The operations after it leave the reference's aggregated
  features A and guarded inverse degree, the latter also as a column d, and the bias as a row b. The second kernel
  leaves the column sums S and the column sums of squares Q of the raw values A · d + b. The operations after it
  leave the scale and the shift as rows. The third kernel leaves, at node n and column q,
      v · logistic v,   v = (A(n,q) · d(n) + b(q)) · scale(q) + shift(q).
-/
import proofs.«117371_j55035710931434_2_alg».proof.Proof.Region0
import proofs.«117371_j55035710931434_2_alg».proof.Proof.Region1
import proofs.«117371_j55035710931434_2_alg».proof.Proof.Region2
import proofs.«117371_j55035710931434_2_alg».proof.Proof.KChain
import proofs.«117371_j55035710931434_2_alg».proof.Proof.KTail

noncomputable section

open scoped BigOperators

namespace Cert.KernelIdeal.Whole

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)
open Cert.ReferenceIdeal.Read

variable (m : (ℓ : Loc nD τ sig) → Buf (Elt Ideal) ℓ) (ρ : Dev nD → PrngReg) (c : Dev nD)

/-- The projected features as the first kernel leaves them are the reference's matrix product. -/
theorem projected_eq (x0 : S100000x128.Idx → Elt Ideal .f32) (x3 : S128x128.Idx → Elt Ideal .f32) :
    Cert.KernelIdeal.Project.projected x0 x3 = val_main_v4 x0 x3 := by
  funext i
  rw [val_main_v4_apply]
  unfold Cert.KernelIdeal.Project.projected
  refine Finset.sum_congr rfl fun k _ => ?_
  refine congrArg₂ (· * ·) (congrArg x0 ?_) (congrArg x3 ?_)
  · funext a; apply Fin.ext; match a with | ⟨0, _⟩ => rfl | ⟨1, _⟩ => rfl
  · funext a; apply Fin.ext; match a with | ⟨0, _⟩ => rfl | ⟨1, _⟩ => rfl

/-! ## Before the first kernel -/

theorem start_node : W1 m ρ c (Proc.devRef .tc main_v1) = val_main_v1 (m ((c : Thread nD τ).loc main_arg1)) := by
  show StableHlo.after hostOps0 (W0 m ρ c) (Proc.devRef .tc main_v1) = _
  after_results_simp
  rfl
theorem start_edge : W1 m ρ c (Proc.devRef .tc main_v3) = val_main_v3 (m ((c : Thread nD τ).loc main_arg1)) := by
  show StableHlo.after hostOps0 (W0 m ρ c) (Proc.devRef .tc main_v3) = _
  after_results_simp
  rfl
theorem start_arg0 : W1 m ρ c (Proc.devRef .tc main_arg0) = m ((c : Thread nD τ).loc main_arg0) := by
  show StableHlo.after hostOps0 (W0 m ρ c) (Proc.devRef .tc main_arg0) = _
  after_results_simp
theorem start_arg2 : W1 m ρ c (Proc.devRef .tc main_arg2) = m ((c : Thread nD τ).loc main_arg2) := by
  show StableHlo.after hostOps0 (W0 m ρ c) (Proc.devRef .tc main_arg2) = _
  after_results_simp
theorem start_arg3 : W1 m ρ c (Proc.devRef .tc main_arg3) = m ((c : Thread nD τ).loc main_arg3) := by
  show StableHlo.after hostOps0 (W0 m ρ c) (Proc.devRef .tc main_arg3) = _
  after_results_simp
theorem start_arg4 : W1 m ρ c (Proc.devRef .tc main_arg4) = m ((c : Thread nD τ).loc main_arg4) := by
  show StableHlo.after hostOps0 (W0 m ρ c) (Proc.devRef .tc main_arg4) = _
  after_results_simp
theorem start_arg5 : W1 m ρ c (Proc.devRef .tc main_arg5) = m ((c : Thread nD τ).loc main_arg5) := by
  show StableHlo.after hostOps0 (W0 m ρ c) (Proc.devRef .tc main_arg5) = _
  after_results_simp
theorem start_arg6 : W1 m ρ c (Proc.devRef .tc main_arg6) = m ((c : Thread nD τ).loc main_arg6) := by
  show StableHlo.after hostOps0 (W0 m ρ c) (Proc.devRef .tc main_arg6) = _
  after_results_simp

/-! ## After the first kernel -/

theorem mid_feat : W2 m ρ c (Proc.devRef .tc main_v4)
    = val_main_v4 (m ((c : Thread nD τ).loc main_arg0)) (m ((c : Thread nD τ).loc main_arg3)) := by
  refine (W2_arr m ρ c 2).trans ?_
  rw [Cert.KernelIdeal.Project.final (V1 m ρ) c]
  show Cert.KernelIdeal.Project.projected (W1 m ρ c (Proc.devRef .tc main_arg0)) (W1 m ρ c (Proc.devRef .tc main_arg3)) = _
  rw [start_arg0, start_arg3]
  exact projected_eq _ _
theorem mid_node : W2 m ρ c (Proc.devRef .tc main_v1) = val_main_v1 (m ((c : Thread nD τ).loc main_arg1)) :=
  (W2_of_ne m ρ c main_v1 (by decide)).trans (start_node m ρ c)
theorem mid_edge : W2 m ρ c (Proc.devRef .tc main_v3) = val_main_v3 (m ((c : Thread nD τ).loc main_arg1)) :=
  (W2_of_ne m ρ c main_v3 (by decide)).trans (start_edge m ρ c)
theorem mid_arg2 : W2 m ρ c (Proc.devRef .tc main_arg2) = m ((c : Thread nD τ).loc main_arg2) :=
  (W2_of_ne m ρ c main_arg2 (by decide)).trans (start_arg2 m ρ c)
theorem mid_arg4 : W2 m ρ c (Proc.devRef .tc main_arg4) = m ((c : Thread nD τ).loc main_arg4) :=
  (W2_of_ne m ρ c main_arg4 (by decide)).trans (start_arg4 m ρ c)
theorem mid_arg5 : W2 m ρ c (Proc.devRef .tc main_arg5) = m ((c : Thread nD τ).loc main_arg5) :=
  (W2_of_ne m ρ c main_arg5 (by decide)).trans (start_arg5 m ρ c)
theorem mid_arg6 : W2 m ρ c (Proc.devRef .tc main_arg6) = m ((c : Thread nD τ).loc main_arg6) :=
  (W2_of_ne m ρ c main_arg6 (by decide)).trans (start_arg6 m ρ c)

/-! ## At the second kernel's entry -/

/-- The aggregated features. -/
abbrev feat : S100000x128.Idx → Elt Ideal .f32 :=
  val_main_v51 (m ((c : Thread nD τ).loc main_arg0)) (m ((c : Thread nD τ).loc main_arg1)) (m ((c : Thread nD τ).loc main_arg3))
/-- The guarded inverse degree as a column. -/
abbrev dcol : S100000x1.Idx → Elt Ideal .f32 :=
  shapeCast S100000x1 (val_main_v19 (m ((c : Thread nD τ).loc main_arg1)) (m ((c : Thread nD τ).loc main_arg2))) shapeCasts_S100000_S100000x1
/-- The bias as a row. -/
abbrev brow : S1x128.Idx → Elt Ideal .f32 := shapeCast S1x128 (m ((c : Thread nD τ).loc main_arg4)) shapeCasts_S128_S1x128

theorem entry_feat : W7 m ρ c (Proc.devRef .tc main_v54) = feat m c :=
  Cert.KernelIdeal.Between.aggregated _ _ _ (W2 m ρ c) (mid_node m ρ c) (mid_edge m ρ c) (mid_feat m ρ c)
theorem entry_dcol : W7 m ρ c (Proc.devRef .tc main_v55) = dcol m c :=
  Cert.KernelIdeal.Between.inv_degree_col _ _ (W2 m ρ c) (mid_node m ρ c) (mid_edge m ρ c) (mid_arg2 m ρ c)
theorem entry_brow : W7 m ρ c (Proc.devRef .tc main_v56) = brow m c :=
  Cert.KernelIdeal.Between.bias_row (W2 m ρ c) _ (mid_arg4 m ρ c)
theorem entry_dinv : W7 m ρ c (Proc.devRef .tc main_v19)
    = val_main_v19 (m ((c : Thread nD τ).loc main_arg1)) (m ((c : Thread nD τ).loc main_arg2)) :=
  Cert.KernelIdeal.Between.inv_degree _ _ (W2 m ρ c) (mid_node m ρ c) (mid_edge m ρ c) (mid_arg2 m ρ c)
theorem entry_arg4 : W7 m ρ c (Proc.devRef .tc main_arg4) = m ((c : Thread nD τ).loc main_arg4) :=
  (Cert.KernelIdeal.Between.keep_arg4 (W2 m ρ c)).trans (mid_arg4 m ρ c)
theorem entry_arg5 : W7 m ρ c (Proc.devRef .tc main_arg5) = m ((c : Thread nD τ).loc main_arg5) :=
  (Cert.KernelIdeal.Between.keep_arg5 (W2 m ρ c)).trans (mid_arg5 m ρ c)
theorem entry_arg6 : W7 m ρ c (Proc.devRef .tc main_arg6) = m ((c : Thread nD τ).loc main_arg6) :=
  (Cert.KernelIdeal.Between.keep_arg6 (W2 m ρ c)).trans (mid_arg6 m ρ c)

/-! ## After the second kernel -/

/-- The column sums and the column sums of squares of the raw values. -/
abbrev sums : S1x128.Idx → Elt Ideal .f32 := Cert.KernelIdeal.Stats.colSums (feat m c) (dcol m c) (brow m c)
abbrev sumsqs : S1x128.Idx → Elt Ideal .f32 := Cert.KernelIdeal.Stats.colSumSqs (feat m c) (dcol m c) (brow m c)

theorem exit_sums : W8 m ρ c (Proc.devRef .tc main_v57_0) = sums m c := by
  refine (W8_arr m ρ c 3).trans ?_
  rw [Cert.KernelIdeal.Stats.final_sum (V7 m ρ) c]
  show Cert.KernelIdeal.Stats.colSums (W7 m ρ c (Proc.devRef .tc main_v54)) (W7 m ρ c (Proc.devRef .tc main_v55)) (W7 m ρ c (Proc.devRef .tc main_v56)) = _
  rw [entry_feat, entry_dcol, entry_brow]
theorem exit_sumsqs : W8 m ρ c (Proc.devRef .tc main_v57_1) = sumsqs m c := by
  refine (W8_arr m ρ c 4).trans ?_
  rw [Cert.KernelIdeal.Stats.final_sumsq (V7 m ρ) c]
  show Cert.KernelIdeal.Stats.colSumSqs (W7 m ρ c (Proc.devRef .tc main_v54)) (W7 m ρ c (Proc.devRef .tc main_v55)) (W7 m ρ c (Proc.devRef .tc main_v56)) = _
  rw [entry_feat, entry_dcol, entry_brow]
theorem exit_feat : W8 m ρ c (Proc.devRef .tc main_v54) = feat m c :=
  ((W8_arr m ρ c 0).trans (((dat1 (V7 m ρ) c).arrAt_in 0 rfl _).trans (A_eq1 (V7 m ρ) c 0))).trans (entry_feat m ρ c)
theorem exit_dinv : W8 m ρ c (Proc.devRef .tc main_v19)
    = val_main_v19 (m ((c : Thread nD τ).loc main_arg1)) (m ((c : Thread nD τ).loc main_arg2)) :=
  (W8_of_ne m ρ c main_v19 (by decide)).trans (entry_dinv m ρ c)
theorem exit_arg4 : W8 m ρ c (Proc.devRef .tc main_arg4) = m ((c : Thread nD τ).loc main_arg4) :=
  (W8_of_ne m ρ c main_arg4 (by decide)).trans (entry_arg4 m ρ c)
theorem exit_arg5 : W8 m ρ c (Proc.devRef .tc main_arg5) = m ((c : Thread nD τ).loc main_arg5) :=
  (W8_of_ne m ρ c main_arg5 (by decide)).trans (entry_arg5 m ρ c)
theorem exit_arg6 : W8 m ρ c (Proc.devRef .tc main_arg6) = m ((c : Thread nD τ).loc main_arg6) :=
  (W8_of_ne m ρ c main_arg6 (by decide)).trans (entry_arg6 m ρ c)

/-! ## At the third kernel's entry, and the result -/

/-- The scale and the shift as rows. -/
abbrev srow : S1x128.Idx → Elt Ideal .f32 :=
  shapeCast S1x128 (Cert.KernelIdeal.Fold.scaleOf (sums m c) (sumsqs m c) (m ((c : Thread nD τ).loc main_arg5))) shapeCasts_S128_S1x128
abbrev hrow : S1x128.Idx → Elt Ideal .f32 :=
  shapeCast S1x128 (Cert.KernelIdeal.Fold.shiftOf (sums m c) (sumsqs m c) (m ((c : Thread nD τ).loc main_arg5))
    (m ((c : Thread nD τ).loc main_arg6))) shapeCasts_S128_S1x128

/-- The result array the program leaves. -/
def result : S100000x128.Idx → Elt Ideal .f32 :=
  Cert.KernelIdeal.Gate.gated (feat m c) (dcol m c) (brow m c) (srow m c) (hrow m c)

theorem result_eq : W10 m ρ c (Proc.devRef .tc main_v78) = result m c := by
  refine (W10_arr m ρ c 5).trans ?_
  rw [Cert.KernelIdeal.Gate.final (V9 m ρ) c]
  show Cert.KernelIdeal.Gate.gated (StableHlo.after hostOps2 (W8 m ρ c) (Proc.devRef .tc main_v54))
    (StableHlo.after hostOps2 (W8 m ρ c) (Proc.devRef .tc main_v74)) (StableHlo.after hostOps2 (W8 m ρ c) (Proc.devRef .tc main_v75))
    (StableHlo.after hostOps2 (W8 m ρ c) (Proc.devRef .tc main_v76)) (StableHlo.after hostOps2 (W8 m ρ c) (Proc.devRef .tc main_v77)) = _
  rw [Cert.KernelIdeal.Fold.keep_feat, Cert.KernelIdeal.Fold.inv_degree_col, Cert.KernelIdeal.Fold.bias_row,
    Cert.KernelIdeal.Fold.scale_row, Cert.KernelIdeal.Fold.shift_row, exit_feat, exit_dinv, exit_arg4, exit_arg5, exit_arg6,
    exit_sums, exit_sumsqs]
  rfl

end Cert.KernelIdeal.Whole

end
-- ==== Proof.RefAt.lean ====
/-
  The reference's result read at an index.

  At node n and column q the reference computes, from the raw values  raw(n') = A(n', q) · d(n') + b(q)  of the
  column: the mean (0 + Σ raw)/N, the variance (0 + Σ (raw − mean)²)/N, the normalised value
  w = ((raw(n) − mean) · rsqrt(variance + ε)) · γ(q) + β(q)  and the result  w · (1/(1 + exp(−w))).  Each of its
  operations is read at the index from its operands at an index; the index maps of its broadcasts and of its two
  column sums are written out coordinate by coordinate.
-/
import proofs.«117371_j55035710931434_2_alg».proof.Proof.RefRead
import Idealize.ShloMosaic.Lib.ValueIdx

noncomputable section

open scoped BigOperators

namespace Cert.ReferenceIdeal.At

open Cert.ReferenceIdeal Cert.ReferenceIdeal.Gen Cert.ReferenceIdeal.Read
open Idealize.ShloMosaic Idealize.ShloMosaic.ValueIdx

/-- The raw value of node n at column q. -/
def raw (A : S100000x128.Idx → EReal) (d : S100000.Idx → EReal) (b : S128.Idx → EReal) (q : Fin 128) (n : Fin 100000) : EReal :=
  A (ix2 n q) * d (ix1 n) + b (ix1 q)

/-- The column mean as the reference takes it. -/
def meanR (r : Fin 100000 → EReal) : EReal :=
  Ideal.div (Ideal.ofBits .f32 0x00000000#32 + ∑ n, r n) (Ideal.ofBits .f32 0x47C35000#32)
/-- The column variance as the reference takes it. -/
def varR (r : Fin 100000 → EReal) : EReal :=
  Ideal.div (Ideal.ofBits .f32 0x00000000#32 + ∑ n, (r n - meanR r) * (r n - meanR r)) (Ideal.ofBits .f32 0x47C35000#32)
/-- The normalised value. -/
def normR (r : Fin 100000 → EReal) (g be : EReal) (n : Fin 100000) : EReal :=
  ((r n - meanR r) * Ideal.rsqrt (varR r + Ideal.ofBits .f32 0x3727C5AC#32)) * g + be
/-- The gated value. -/
def gateR (w : EReal) : EReal :=
  w * Ideal.div (Ideal.ofBits .f32 0x3F800000#32) (Ideal.ofBits .f32 0x3F800000#32 + Ideal.exp (-w))

variable (x0 : (⟨S100000x128, .f32⟩ : BufTy).Contents (Elt Ideal)) (x1 : (⟨S2x1600000, .i32⟩ : BufTy).Contents (Elt Ideal))
  (x2 : (⟨S50000, .f32⟩ : BufTy).Contents (Elt Ideal)) (x3 : (⟨S128x128, .f32⟩ : BufTy).Contents (Elt Ideal))
  (x4 x5 x6 : (⟨S128, .f32⟩ : BufTy).Contents (Elt Ideal))

/-- The column's raw values from the aggregated features, the guarded inverse degree and the bias. -/
abbrev col (q : Fin 128) : Fin 100000 → EReal := raw (val_main_v51 x0 x1 x3) (val_main_v19 x1 x2) x4 q

theorem raw_at (n : Fin 100000) (q : Fin 128) : val_main_v57 x0 x1 x2 x3 x4 (ix2 n q) = col x0 x1 x2 x3 x4 q n := by
  rw [val_main_v57_apply, val_main_v54_apply, val_main_v53_apply, val_main_v52_apply, val_main_v56_apply, val_main_v55_apply]
  have e1 : idx_main_v52 (idx_main_v53 (ix2 n q)) = ix1 n := funext fun a => Fin.ext (by match a with | ⟨0, _⟩ => rfl)
  have e2 : idx_main_v55 (idx_main_v56 (ix2 n q)) = ix1 q := funext fun a => Fin.ext (by match a with | ⟨0, _⟩ => rfl)
  rw [e1, e2]
  simp only [raw, Ideal.addf_def, Ideal.mulf_def]

theorem mean_at (q : Fin 128) : val_main_v60 x0 x1 x2 x3 x4 (ix1 q) = meanR (col x0 x1 x2 x3 x4 q) := by
  rw [val_main_v60_apply, val_main_v58_apply, val_main_v59_apply, val_main_cst_16_apply, val_main_cst_15_apply]
  have hsum : ∑ k : Fin 100000, (val_main_v57 x0 x1 x2 x3 x4) (idx_main_v58 (ix1 q) k) = ∑ k : Fin 100000, col x0 x1 x2 x3 x4 q k :=
    Finset.sum_congr rfl fun k _ => by
      have e : idx_main_v58 (ix1 q) k = ix2 k q := funext fun a => Fin.ext (by match a with | ⟨0, _⟩ => rfl | ⟨1, _⟩ => rfl)
      rw [e, raw_at]
  rw [hsum]
  simp only [meanR, Ideal.hostDivf_def, Ideal.ofBits_def]

theorem centred_at (n : Fin 100000) (q : Fin 128) :
    val_main_v63 x0 x1 x2 x3 x4 (ix2 n q) = col x0 x1 x2 x3 x4 q n - meanR (col x0 x1 x2 x3 x4 q) := by
  rw [val_main_v63_apply, val_main_v62_apply, val_main_v61_apply, raw_at]
  have e : idx_main_v61 (idx_main_v62 (ix2 n q)) = ix1 q := funext fun a => Fin.ext (by match a with | ⟨0, _⟩ => rfl)
  rw [e, mean_at]
  simp only [Ideal.subf_def]

theorem centred_at' (n : Fin 100000) (q : Fin 128) :
    val_main_v70 x0 x1 x2 x3 x4 (ix2 n q) = col x0 x1 x2 x3 x4 q n - meanR (col x0 x1 x2 x3 x4 q) := by
  rw [val_main_v70_apply, val_main_v69_apply, val_main_v68_apply, raw_at]
  have e : idx_main_v68 (idx_main_v69 (ix2 n q)) = ix1 q := funext fun a => Fin.ext (by match a with | ⟨0, _⟩ => rfl)
  rw [e, mean_at]
  simp only [Ideal.subf_def]

theorem var_at (q : Fin 128) : val_main_v67 x0 x1 x2 x3 x4 (ix1 q) = varR (col x0 x1 x2 x3 x4 q) := by
  rw [val_main_v67_apply, val_main_v65_apply, val_main_v66_apply, val_main_cst_18_apply, val_main_cst_17_apply]
  have hsum : ∑ k : Fin 100000, (val_main_v64 x0 x1 x2 x3 x4) (idx_main_v65 (ix1 q) k)
      = ∑ k : Fin 100000, (col x0 x1 x2 x3 x4 q k - meanR (col x0 x1 x2 x3 x4 q)) * (col x0 x1 x2 x3 x4 q k - meanR (col x0 x1 x2 x3 x4 q)) :=
    Finset.sum_congr rfl fun k _ => by
      have e : idx_main_v65 (ix1 q) k = ix2 k q := funext fun a => Fin.ext (by match a with | ⟨0, _⟩ => rfl | ⟨1, _⟩ => rfl)
      rw [e, val_main_v64_apply, centred_at]
      simp only [Ideal.mulf_def]
  rw [hsum]
  simp only [varR, Ideal.hostDivf_def, Ideal.ofBits_def]

theorem rs_at (q : Fin 128) :
    val_main_v73 x0 x1 x2 x3 x4 (ix1 q) = Ideal.rsqrt (varR (col x0 x1 x2 x3 x4 q) + Ideal.ofBits .f32 0x3727C5AC#32) := by
  rw [val_main_v73_apply, val_main_v72_apply, val_main_v71_apply, val_main_cst_19_apply, var_at]
  simp only [Ideal.hostUnary_rsqrt_def, Ideal.addf_def, Ideal.ofBits_def]

theorem norm_at (n : Fin 100000) (q : Fin 128) :
    val_main_v82 x0 x1 x2 x3 x4 x5 x6 (ix2 n q) = normR (col x0 x1 x2 x3 x4 q) (x5 (ix1 q)) (x6 (ix1 q)) n := by
  rw [val_main_v82_apply, val_main_v79_apply, val_main_v76_apply, val_main_v75_apply, val_main_v74_apply, val_main_v78_apply,
    val_main_v77_apply, val_main_v81_apply, val_main_v80_apply, centred_at']
  have e1 : idx_main_v74 (idx_main_v75 (ix2 n q)) = ix1 q := funext fun a => Fin.ext (by match a with | ⟨0, _⟩ => rfl)
  have e2 : idx_main_v77 (idx_main_v78 (ix2 n q)) = ix1 q := funext fun a => Fin.ext (by match a with | ⟨0, _⟩ => rfl)
  have e3 : idx_main_v80 (idx_main_v81 (ix2 n q)) = ix1 q := funext fun a => Fin.ext (by match a with | ⟨0, _⟩ => rfl)
  rw [e1, e2, e3, rs_at]
  simp only [normR, Ideal.addf_def, Ideal.mulf_def]

/-- The reference's result at node n, column q. -/
theorem out_at (n : Fin 100000) (q : Fin 128) :
    val_main_v89 x0 x1 x2 x3 x4 x5 x6 (ix2 n q) = gateR (normR (col x0 x1 x2 x3 x4 q) (x5 (ix1 q)) (x6 (ix1 q)) n) := by
  rw [val_main_v89_apply, val_main_v88_apply, val_main_v87_apply, val_main_cst_21_apply, val_main_v86_apply, val_main_v85_apply,
    val_main_cst_20_apply, val_main_v84_apply, val_main_v83_apply, norm_at]
  simp only [gateR, Ideal.mulf_def, Ideal.hostDivf_def, Ideal.addf_def, Ideal.hostUnary_exp_def, Ideal.hostNegf_def, Ideal.negf_def,
    Ideal.ofBits_def]

end Cert.ReferenceIdeal.At

end
-- ==== Proof.Algebra.lean ====
/-
  Batch normalisation written two ways, on the extended reals.

  For one feature column let r be the column's entries (real numbers, one per node), N their number, S = Σ r and
  Q = Σ r². One program normalises with the mean S/N and the variance taken as E[r²] − (E r)² cut off below at zero,
  folding the affine map into one scale and one shift:
      x · (g · ρ) + (β − (S/N) · (g · ρ)),      ρ = 1/√(max(Q/N − (S/N)², 0) + ε).
  The other centres first and takes the variance as the mean of the squared deviations:
      ((x − S/N) · ρ') · g + β,                  ρ' = 1/√((Σ (r − S/N)²)/N + ε).
  Over the real numbers the two variances are one number (expand the square; Σ (r − μ)² = Q − N μ² when N μ = S), it
  is not negative (a mean of squares), so the cut-off does nothing, and the two affine forms agree by distributivity.
  The same is then said of the extended-real expressions the two programs compute, whose every entry is the image of
  a real number: sums, quotients by N, the maximum and the reciprocal square root of a positive number all stay
  among the images of reals, where the operations are the real ones.
-/
import Idealize.ShloMosaic.PureOps.Ideal
import Mathlib

open scoped BigOperators

namespace Cert.BatchNorm

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mean of the squared deviations from the mean is the mean of the squares less the squared mean. -/
theorem var_identity {ι : Type*} [Fintype ι] (r : ι → ℝ) (N : ℝ) (hN : N ≠ 0) (hc : (Fintype.card ι : ℝ) = N) :
    (∑ i, (r i - (∑ j, r j) / N) * (r i - (∑ j, r j) / N)) / N
      = (∑ i, r i * r i) / N - ((∑ j, r j) / N) * ((∑ j, r j) / N) := by
  have h1 : ∑ i, (r i - (∑ j, r j) / N) * (r i - (∑ j, r j) / N)
      = (∑ i, r i * r i) - 2 * ((∑ j, r j) / N) * (∑ j, r j) + N * (((∑ j, r j) / N) * ((∑ j, r j) / N)) := by
    have e : ∀ i, (r i - (∑ j, r j) / N) * (r i - (∑ j, r j) / N)
        = r i * r i - 2 * ((∑ j, r j) / N) * r i + ((∑ j, r j) / N) * ((∑ j, r j) / N) := fun i => by ring
    simp only [e, Finset.sum_add_distrib, Finset.sum_sub_distrib, ← Finset.mul_sum, Finset.sum_const, Finset.card_univ,
      nsmul_eq_mul, hc]
    ring
  rw [h1]
  field_simp
  ring

/-- A mean of squares is not negative. -/
theorem var_nonneg {ι : Type*} [Fintype ι] (r : ι → ℝ) (μ N : ℝ) (hN : 0 < N) :
    0 ≤ (∑ i, (r i - μ) * (r i - μ)) / N :=
  div_nonneg (Finset.sum_nonneg fun i _ => mul_self_nonneg _) hN.le

/-- The two affine forms of the normalised entry are one real number. -/
theorem norm_forms {ι : Type*} [Fintype ι] (r : ι → ℝ) (N : ℝ) (hN : 0 < N) (hc : (Fintype.card ι : ℝ) = N)
    (g β ε x : ℝ) :
    x * (g * (Real.sqrt (max ((∑ i, r i * r i) / N - ((∑ j, r j) / N) * ((∑ j, r j) / N)) 0 + ε))⁻¹)
        + (β - ((∑ j, r j) / N) * (g * (Real.sqrt (max ((∑ i, r i * r i) / N - ((∑ j, r j) / N) * ((∑ j, r j) / N)) 0 + ε))⁻¹))
      = (x - (∑ j, r j) / N) * (Real.sqrt ((∑ i, (r i - (∑ j, r j) / N) * (r i - (∑ j, r j) / N)) / N + ε))⁻¹ * g + β := by
  have hv := var_identity r N hN.ne' hc
  have hnn := var_nonneg r ((∑ j, r j) / N) N hN
  rw [← hv, max_eq_left hnn]
  ring

end Cert.BatchNorm
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.Forms.lean ====
/-
  The two normalised-and-gated entries are one extended real.

  For one feature column let the raw values be images of real numbers r, and the scale γ and offset β real. The
  program's entry is  v · logistic v  with  v = r_n · scale + shift  from the sums S = Σ r and Q = Σ r²; the
  reference's is  w · (1 / (1 + exp(−w)))  with  w = ((r_n − mean) · ρ') · γ + β  from the centred squares. Both v
  and w are images of real numbers — sums, quotients by the number of nodes, the maximum with zero and the reciprocal
  square root of a positive number keep the images of reals, where they are the real operations — and the two reals
  are equal (the variance identity and distributivity); and the logistic function is by definition 1 / (1 + exp(−·)).
-/
import proofs.«117371_j55035710931434_2_alg».proof.Proof.Algebra
import proofs.«117371_j55035710931434_2_alg».proof.Proof.Lits
import proofs.«117371_j55035710931434_2_alg».proof.Proof.LibRealClosed

noncomputable section

open scoped BigOperators

namespace Cert.BatchNorm

open Idealize.ShloMosaic Cert.LibRealClosed

theorem div_real (a c : ℝ) (hc : c ≠ 0) : Ideal.div (a : EReal) (c : EReal) = ((a / c : ℝ) : EReal) := by
  rw [Ideal.div_coe hc, ← EReal.coe_mul, mul_one_div]

theorem rsqrt_real (x : ℝ) (hx : 0 < x) : Ideal.rsqrt (x : EReal) = (((Real.sqrt x)⁻¹ : ℝ) : EReal) := by
  rw [Ideal.rsqrt_coe, if_neg (not_lt.mpr hx.le), if_neg hx.ne']

theorem coe_max (a b : ℝ) : max (a : EReal) (b : EReal) = ((max a b : ℝ) : EReal) :=
  (EReal.coe_strictMono.monotone.map_max).symm

variable {ι : Type*} [Fintype ι]

/-- The program's normalised entry, as the image of a real number. -/
theorem ker_norm (r : ι → ℝ) (N : ℝ) (hN : 0 < N) (hc : (Fintype.card ι : ℝ) = N) (g β ε x : ℝ) (hε : 0 < ε) :
    (x : EReal) * ((g : EReal) * Ideal.rsqrt (max (Ideal.div (∑ i, (r i : EReal) * (r i : EReal)) (N : EReal)
          - Ideal.div (∑ i, (r i : EReal)) (N : EReal) * Ideal.div (∑ i, (r i : EReal)) (N : EReal)) 0 + (ε : EReal)))
      + ((β : EReal) - Ideal.div (∑ i, (r i : EReal)) (N : EReal) * ((g : EReal) * Ideal.rsqrt (max (Ideal.div (∑ i, (r i : EReal) * (r i : EReal)) (N : EReal)
          - Ideal.div (∑ i, (r i : EReal)) (N : EReal) * Ideal.div (∑ i, (r i : EReal)) (N : EReal)) 0 + (ε : EReal))))
    = ((x * (g * (Real.sqrt (max ((∑ i, r i * r i) / N - ((∑ j, r j) / N) * ((∑ j, r j) / N)) 0 + ε))⁻¹)
        + (β - ((∑ j, r j) / N) * (g * (Real.sqrt (max ((∑ i, r i * r i) / N - ((∑ j, r j) / N) * ((∑ j, r j) / N)) 0 + ε))⁻¹)) : ℝ) : EReal) := by
  have hS : ∑ i, (r i : EReal) = ((∑ i, r i : ℝ) : EReal) := (coe_sum _ _).symm
  have hQ : ∑ i, (r i : EReal) * (r i : EReal) = ((∑ i, r i * r i : ℝ) : EReal) := by
    rw [coe_sum]; exact Finset.sum_congr rfl fun i _ => (EReal.coe_mul _ _).symm
  have hpos : 0 < max ((∑ i, r i * r i) / N - ((∑ j, r j) / N) * ((∑ j, r j) / N)) 0 + ε :=
    add_pos_of_nonneg_of_pos (le_max_right _ _) hε
  rw [hS, hQ, div_real _ _ hN.ne', div_real _ _ hN.ne', ← EReal.coe_mul, ← EReal.coe_sub, ← EReal.coe_zero, coe_max,
    ← EReal.coe_add, rsqrt_real _ hpos, ← EReal.coe_mul, ← EReal.coe_mul, ← EReal.coe_mul, ← EReal.coe_sub, ← EReal.coe_add]

/-- The reference's normalised entry, as the image of a real number. -/
theorem ref_norm (r : ι → ℝ) (N : ℝ) (hN : 0 < N) (g β ε x : ℝ) (hε : 0 < ε) :
    (((x : EReal) - Ideal.div (0 + ∑ i, (r i : EReal)) (N : EReal))
        * Ideal.rsqrt (Ideal.div (0 + ∑ i, ((r i : EReal) - Ideal.div (0 + ∑ j, (r j : EReal)) (N : EReal))
            * ((r i : EReal) - Ideal.div (0 + ∑ j, (r j : EReal)) (N : EReal))) (N : EReal) + (ε : EReal))) * (g : EReal) + (β : EReal)
    = (((x - (∑ j, r j) / N) * (Real.sqrt ((∑ i, (r i - (∑ j, r j) / N) * (r i - (∑ j, r j) / N)) / N + ε))⁻¹ * g + β : ℝ) : EReal) := by
  have hS : ∑ i, (r i : EReal) = ((∑ i, r i : ℝ) : EReal) := (coe_sum _ _).symm
  have hpos : 0 < (∑ i, (r i - (∑ j, r j) / N) * (r i - (∑ j, r j) / N)) / N + ε :=
    add_pos_of_nonneg_of_pos (var_nonneg r _ N hN) hε
  rw [zero_add, zero_add, hS, div_real _ _ hN.ne']
  have hV : ∑ i, ((r i : EReal) - (((∑ j, r j) / N : ℝ) : EReal)) * ((r i : EReal) - (((∑ j, r j) / N : ℝ) : EReal))
      = ((∑ i, (r i - (∑ j, r j) / N) * (r i - (∑ j, r j) / N) : ℝ) : EReal) := by
    rw [coe_sum]; exact Finset.sum_congr rfl fun i _ => by rw [← EReal.coe_sub, ← EReal.coe_mul]
  rw [hV, div_real _ _ hN.ne', ← EReal.coe_add, rsqrt_real _ hpos, ← EReal.coe_sub, ← EReal.coe_mul, ← EReal.coe_mul, ← EReal.coe_add]

/-- The logistic function is 1 / (1 + exp(−·)) with the literal 1.0 for both ones. -/
theorem logistic_spelt (w : EReal) :
    Ideal.logistic w = Ideal.div (Ideal.ofBits .f32 0x3F800000#32) (Ideal.ofBits .f32 0x3F800000#32 + Ideal.exp (-w)) := by
  rw [Cert.Lits.one, EReal.coe_one]; rfl

end Cert.BatchNorm

end
-- ==== Proof.LibRealHost.lean ====
/-
  More host operations on arrays of extended reals: the ones that keep every entry a real number, and the ones that make
  every entry a POSITIVE real number.

  A softmax row and a Gaussian overlap are built from exponentials, logarithms of positive numbers, sums along an axis, a
  maximum along an axis, and quotients by a sum of exponentials.  Each keeps the entries real: the exponential of a real
  is a positive real; the logarithm of a positive real is real; a sum along an axis of reals (from a real initial value) is
  real, and of positive reals from zero over a non-empty axis is positive; the maximum along a non-empty axis of reals, taken
  from minus infinity, is one of them; a finite float literal is a dyadic rational; a gather copies entries of its operand;
  a change of float format is the identity.  None of these facts reads an array at a particular index.
-/
import proofs.«117371_j55035710931434_2_alg».proof.Proof.LibRealClosed
import Idealize.ShloMosaic.PureOps.Reduce
import Idealize.ShloMosaic.PureOps.Ideal.Laws

noncomputable section

open scoped BigOperators

namespace Cert.LibRealHost

open Idealize.ShloMosaic Cert.LibRealClosed

/-- An extended real that is a positive real number. -/
def IsPos (x : EReal) : Prop := ∃ r : ℝ, 0 < r ∧ x = (r : EReal)

theorem IsPos.isReal {x : EReal} (h : IsPos x) : IsReal x := by
  obtain ⟨r, _, e⟩ := h; exact ⟨r, e⟩

theorem IsPos.ne_zero {x : EReal} (h : IsPos x) : x ≠ 0 := by
  obtain ⟨r, hr, rfl⟩ := h
  intro e
  exact (ne_of_gt hr) (EReal.coe_eq_zero.mp e)

/-- A real number above zero, as extended reals compare, is a positive real. -/
theorem isPos_of_isReal_of_pos {x : EReal} (h : IsReal x) (hp : 0 < x) : IsPos x := by
  obtain ⟨r, rfl⟩ := h
  exact ⟨r, EReal.coe_pos.mp hp, rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

/-- A sum of positive reals over a non-empty finite set is a positive real. -/
theorem IsPos.sum {ι : Type*} (s : Finset ι) (hs : s.Nonempty) (f : ι → EReal) (h : ∀ i ∈ s, IsPos (f i)) :
    IsPos (∑ i ∈ s, f i) := by
  classical
  induction hs using Finset.Nonempty.cons_induction with
  | singleton a => rw [Finset.sum_singleton]; exact h a (Finset.mem_singleton_self a)
  | cons a s ha _ ih =>
    rw [Finset.sum_cons]
    exact (h a (Finset.mem_cons_self a s)).add (ih fun i hi => h i (Finset.mem_cons.mpr (Or.inr hi)))

/-- The larger of two reals is real. -/
theorem isReal_max {x y : EReal} (hx : IsReal x) (hy : IsReal y) : IsReal (max x y) := by
  rcases le_total x y with h | h
  · rw [max_eq_right h]; exact hy
  · rw [max_eq_left h]; exact hx

/-- The exponential of a real is a positive real. -/
theorem IsPos.exp {x : EReal} (hx : IsReal x) : IsPos (Ideal.exp x) := by
  obtain ⟨r, rfl⟩ := hx
  exact ⟨Real.exp r, Real.exp_pos r, rfl⟩

/-- The logarithm of a positive real is real. -/
theorem isReal_log {x : EReal} (hx : IsPos x) : IsReal (Ideal.log x) := by
  obtain ⟨r, hr, rfl⟩ := hx
  rw [Ideal.log_coe, if_neg (not_le.mpr hr)]
  exact ⟨_, rfl⟩

/-- A maximum from minus infinity over a finite set of reals is minus infinity on the empty set and real otherwise. -/
theorem fold_max_bot {ι : Type*} (s : Finset ι) (f : ι → EReal) (h : ∀ i ∈ s, IsReal (f i)) :
    (s = ∅ ∧ s.fold max ⊥ f = ⊥) ∨ IsReal (s.fold max ⊥ f) := by
  classical
  induction s using Finset.induction_on with
  | empty => exact Or.inl ⟨rfl, Finset.fold_empty⟩
  | insert a s ha ih =>
    right
    rw [Finset.fold_insert ha]
    rcases ih (fun i hi => h i (Finset.mem_insert_of_mem hi)) with ⟨_, e⟩ | hr
    · rw [e, max_eq_left bot_le]; exact h a (Finset.mem_insert_self a s)
    · exact isReal_max (h a (Finset.mem_insert_self a s)) hr

/-- A float32 pattern whose exponent field is not all ones denotes a real number (a dyadic rational). -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  simp only []
  rw [if_neg h]
  split_ifs <;> exact ⟨_, rfl⟩

/-- Every entry of the array is a positive real number. -/
def AllPos {S : Shape} {φ : FTy} (v : FVec Ideal S φ) : Prop := ∀ i, IsPos (v i)

variable {s t : Shape} {φ : FTy}

theorem AllPos.allReal {x : FVec Ideal s φ} (h : AllPos x) : AllReal x := fun i => (h i).isReal

/-- An array of reals each above zero is an array of positive reals. -/
theorem AllPos.of_pos {x : FVec Ideal s φ} (h : AllReal x) (hp : ∀ i, (0 : EReal) < x i) : AllPos x :=
  fun i => isPos_of_isReal_of_pos (h i) (hp i)

theorem AllPos.hostExp {x : FVec Ideal s φ} (hx : AllReal x) : AllPos (Host.exp x) := fun i => IsPos.exp (hx i)

theorem AllReal.hostLog {x : FVec Ideal s φ} (hx : AllPos x) : AllReal (Host.log x) := fun i => isReal_log (hx i)

theorem AllReal.maximumf {x y : FVec Ideal s φ} (hx : AllReal x) (hy : AllReal y) : AllReal (maximumf x y) :=
  fun i => isReal_max (hx i) (hy i)

/-- A change to a narrower float format is the identity on the extended reals. -/
theorem AllReal.truncf {ψ : FTy} {x : FVec Ideal s φ} (h : ψ.bits < φ.bits) (hx : AllReal x) :
    AllReal (φ := ψ) (truncf ψ x h) := fun i => hx i

/-- A gathered entry is an entry of the operand, whatever the indices. -/
theorem AllReal.gather {si : Shape} {w : Nat} (d : GatherDims s si t) {x : FVec Ideal s φ} (idx : IVec si w)
    (hx : AllReal x) : AllReal (φ := φ) (Host.gather d x idx) := fun _ => hx _

/-- A finite float32 literal splatted over a shape. -/
theorem AllReal.constant_f32 (b : BitVec 32) (h : (b.extractLsb' 23 8).toNat ≠ 2 ^ 8 - 1) :
    AllReal (constant (F := Ideal) s .f32 b) := fun _ => isReal_ofBits_f32 b h

/-- The host's sum along any axes of an array of reals, from a real initial value, is an array of reals. -/
theorem AllReal.hostReduceAdd {axes : List (Fin s.rank)} {u : Shape} {x : FVec Ideal s φ} {init : u.Idx → Ideal φ}
    (h : s.ReducesTo axes t) (hu : 0 < u.numel) (hx : AllReal x) (hi : ∀ i, IsReal (init i)) :
    AllReal (Host.reduceAdd x init h hu) := by
  intro j
  show IsReal (Ideal.hostReduceAdd h x (init (Shape.Idx.first hu)) j)
  unfold Ideal.hostReduceAdd
  exact (hi _).add (IsReal.sum _ _ fun i _ => hx i)

/-- The host's sum along ONE non-empty axis of an array of positive reals, from zero, is an array of positive reals. -/
theorem AllPos.hostReduceAdd_single {a : Fin s.rank} {u : Shape} {x : FVec Ideal s φ} {init : u.Idx → Ideal φ}
    (h' : s.ReducesTo [a] t) (h : s.Reduces [a] t) (hu : 0 < u.numel) (hn : 0 < s.size a) (hx : AllPos x)
    (hi : ∀ i, init i = 0) : AllPos (Host.reduceAdd x init h' hu) := by
  intro j
  show IsPos (Ideal.hostReduceAdd h' x (init (Shape.Idx.first hu)) j)
  rw [Ideal.hostReduceAdd_single h' h, hi, zero_add]
  haveI : Nonempty (Fin (s.size a)) := ⟨⟨0, hn⟩⟩
  exact IsPos.sum _ Finset.univ_nonempty _ fun k _ => hx _

/-- The host's maximum along ONE non-empty axis of an array of reals, taken from minus infinity, is an array of reals. -/
theorem AllReal.hostReduceMax_single {a : Fin s.rank} {u : Shape} {x : FVec Ideal s φ} {init : u.Idx → Ideal φ}
    (h' : s.ReducesTo [a] t) (h : s.Reduces [a] t) (hu : 0 < u.numel) (hn : 0 < s.size a) (hx : AllReal x)
    (hi : ∀ i, init i = ⊥) : AllReal (Host.reduce FloatOps.maximumf x init h' hu) := by
  intro j
  rw [Host.reduce_eq_fold_single FloatOps.maximumf x init h' h hu j, hi]
  haveI : Nonempty (Fin (s.size a)) := ⟨⟨0, hn⟩⟩
  rcases fold_max_bot (Finset.univ : Finset (Fin (s.size a))) (x ∘ h.lift j) (fun k _ => hx _) with ⟨e, _⟩ | hr
  · exact absurd e Finset.univ_nonempty.ne_empty
  · exact hr

end Cert.LibRealHost

end
-- ==== Proof.LibRealScatter.lean ====
/-
  The host's accumulating scatter keeps an array real.

  On the extended reals the accumulating scatter is exact: an entry of its result is the operand's entry there plus the
  sum of the update entries whose scattered position is that entry, an update that lands outside the operand adding
  nothing. So whatever the indices are, an entry of the result is a real number plus a finite sum of real numbers, hence
  real, as soon as every entry of the operand and of the updates is real. Generic in the shapes, the dimension numbers,
  the index width and the float format; no array is read at a particular index.
-/
import proofs.«117371_j55035710931434_2_alg».proof.Proof.LibRealClosed

noncomputable section

open scoped BigOperators

namespace Cert.LibRealScatter

open Idealize.ShloMosaic Cert.LibRealClosed

/-- An accumulating scatter of real updates into a real operand is real at every entry, whatever the indices. -/
theorem allReal_scatterAdd {s si su : Shape} {φ : FTy} {w : Nat} (d : ScatterDims s si su) {x : FVec Ideal s φ}
    (idx : IVec si w) {upd : FVec Ideal su φ} (hx : AllReal x) (hu : AllReal upd) :
    AllReal (Host.scatterAdd d x idx upd) := by
  intro i
  show IsReal (Ideal.hostScatterAdd d x idx upd i)
  unfold Ideal.hostScatterAdd
  exact (hx i).add (IsReal.sum _ _ fun j _ => hu j)

end Cert.LibRealScatter

end
-- ==== Proof.Reals.lean ====
/-
  Every entry of the arrays the normalisation starts from is a real number.

  On the extended reals a sum, a product and a gather or a segment sum of real entries are real, and so is a matrix
  product. A guarded reciprocal  where(D > 0, 1/D, 0)  of a real array D is real entry by entry: where D is positive
  it is not zero and the quotient is real, elsewhere the guard picks 0. So from real node features, weights,
  hyperedge weights and bias follow a real projection, real degrees and guarded inverse degrees, real hyperedge
  features and real aggregated features, and with them a real raw value  A · d + b  at every node and column.
-/
import proofs.«117371_j55035710931434_2_alg».proof.Proof.RefRead
import proofs.«117371_j55035710931434_2_alg».proof.Proof.LibRealClosed
import proofs.«117371_j55035710931434_2_alg».proof.Proof.LibRealHost
import proofs.«117371_j55035710931434_2_alg».proof.Proof.LibRealScatter
import proofs.«117371_j55035710931434_2_alg».proof.Proof.Lits

noncomputable section

namespace Cert.ReferenceIdeal.Reals

open Cert.ReferenceIdeal Cert.ReferenceIdeal.Gen Cert.ReferenceIdeal.Read
open Idealize.ShloMosaic
open Cert.LibRealClosed Cert.LibRealHost Cert.LibRealScatter

/-- A scalar literal broadcast to any shape is real when the literal is. -/
theorem allReal_splat {t : Shape} (h : (⟨0, ![]⟩ : Shape).BroadcastsInDim t ![]) (b : BitVec 32) (hb : IsReal (Ideal.ofBits .f32 b)) :
    AllReal (φ := .f32) (broadcastInDim t ![] h (constant (F := Ideal) ⟨0, ![]⟩ .f32 b)) := fun _ => hb

theorem real_zero : IsReal (Ideal.ofBits .f32 0x00000000#32) := by rw [Cert.Lits.zero]; exact IsReal.zero
theorem real_one : IsReal (Ideal.ofBits .f32 0x3F800000#32) := by rw [Cert.Lits.one]; exact IsReal.coe 1

/-- The guarded reciprocal of a real array is real. -/
theorem allReal_guarded {s : Shape} (D z o y : FVec Ideal s .f32) (hD : AllReal D) (hz : ∀ i, z i = 0) (ho : ∀ i, IsReal (o i))
    (hy : ∀ i, IsReal (y i)) : AllReal (select (cmpf .ogt D z) (Host.divf o D) y) := by
  intro i
  show IsReal (if Ideal.cmp .ogt (D i) (z i) = 1 then Ideal.div (o i) (D i) else y i)
  by_cases hlt : z i < D i
  · have hc : Ideal.cmp .ogt (D i) (z i) = 1 := by simp [Ideal.cmp, hlt]
    rw [if_pos hc]
    refine IsReal.div (ho i) (hD i) ?_
    intro h0
    rw [h0, hz] at hlt
    exact lt_irrefl _ hlt
  · have hc : ¬Ideal.cmp .ogt (D i) (z i) = 1 := by simp [Ideal.cmp, hlt]
    rw [if_neg hc]
    exact hy i

variable (x0 : (⟨S100000x128, .f32⟩ : BufTy).Contents (Elt Ideal)) (x1 : (⟨S2x1600000, .i32⟩ : BufTy).Contents (Elt Ideal))
  (x2 : (⟨S50000, .f32⟩ : BufTy).Contents (Elt Ideal)) (x3 : (⟨S128x128, .f32⟩ : BufTy).Contents (Elt Ideal))

/-- The weighted node degree. -/
theorem real_degree (h2 : AllReal (φ := .f32) x2) : AllReal (φ := .f32) (val_main_v14 x1 x2) := by
  unfold val_main_v14 val_main_v12 val_main_cst val_main_v11
  exact allReal_scatterAdd _ _ (allReal_splat _ _ real_zero) (AllReal.gather _ _ h2)

/-- The guarded inverse node degree. -/
theorem real_inv_degree (h2 : AllReal (φ := .f32) x2) : AllReal (φ := .f32) (val_main_v19 x1 x2) := by
  unfold val_main_v19 val_main_v16 val_main_v18 val_main_v15 val_main_v17 val_main_call0_v1 val_main_call0_v0 val_main_cst_1 val_main_cst_2 val_main_cst_3
  exact allReal_guarded _ _ _ _ (real_degree x1 x2 h2) (fun _ => Cert.Lits.zero) (fun _ => real_one) (fun _ => real_zero)

/-- The hyperedge size. -/
theorem real_size : AllReal (φ := .f32) (val_main_v23 (F := Ideal) x1) := by
  unfold val_main_v23 val_main_v21 val_main_v20 val_main_cst_5 val_main_cst_4
  exact allReal_scatterAdd _ _ (allReal_splat _ _ real_zero) (allReal_splat _ _ real_one)

/-- The guarded inverse hyperedge size. -/
theorem real_inv_size : AllReal (φ := .f32) (val_main_v28 (F := Ideal) x1) := by
  unfold val_main_v28 val_main_v25 val_main_v27 val_main_v24 val_main_v26 val_main_call1_v1 val_main_call1_v0 val_main_cst_6 val_main_cst_7 val_main_cst_8
  exact allReal_guarded _ _ _ _ (real_size x1) (fun _ => Cert.Lits.zero) (fun _ => real_one) (fun _ => real_zero)

/-- The aggregated features. -/
theorem real_aggregated (h0 : AllReal (φ := .f32) x0) (h3 : AllReal (φ := .f32) x3) : AllReal (φ := .f32) (val_main_v51 x0 x1 x3) := by
  have h4 : AllReal (φ := .f32) (val_main_v4 x0 x3) := by
    unfold val_main_v4; exact AllReal.dotGeneral _ _ h0 h3
  have h35 : AllReal (φ := .f32) (val_main_v35 x0 x1 x3) := by
    unfold val_main_v35; exact AllReal.gather _ _ h4
  have h38 : AllReal (φ := .f32) (val_main_v38 x0 x1 x3) := by
    unfold val_main_v38 val_main_v36 val_main_cst_11
    exact allReal_scatterAdd _ _ (allReal_splat _ _ real_zero) h35
  have h40 : AllReal (φ := .f32) (val_main_v40 (F := Ideal) x1) := by
    unfold val_main_v40 val_main_v39
    exact AllReal.broadcastInDim _ _ (AllReal.broadcastInDim _ _ (real_inv_size x1))
  have h41 : AllReal (φ := .f32) (val_main_v41 x0 x1 x3) := by
    unfold val_main_v41; exact AllReal.mulf h38 h40
  have h48 : AllReal (φ := .f32) (val_main_v48 x0 x1 x3) := by
    unfold val_main_v48; exact AllReal.gather _ _ h41
  unfold val_main_v51 val_main_v49 val_main_cst_14
  exact allReal_scatterAdd _ _ (allReal_splat _ _ real_zero) h48

end Cert.ReferenceIdeal.Reals

end
-- ==== Proof.Bridge.lean ====
/-
  The program's result array is the reference's, entry by entry, when every float argument holds real numbers.

  At node n and column q both results are functions of the one column of raw values  raw(n') = A(n', q) · d(n') + b(q)
  and of γ(q), β(q): the program's is  v · logistic v  with  v = raw(n) · scale + shift  from the column's sum and sum of
  squares, the reference's  w · (1/(1 + exp(−w)))  from the centred column. The raw values are real (the aggregated
  features and the guarded inverse degree are), so v and w are images of one real number, and the logistic function
  is 1/(1 + exp(−·)).
-/
import proofs.«117371_j55035710931434_2_alg».proof.Proof.KValue
import proofs.«117371_j55035710931434_2_alg».proof.Proof.RefAt
import proofs.«117371_j55035710931434_2_alg».proof.Proof.Forms
import proofs.«117371_j55035710931434_2_alg».proof.Proof.Reals
import Idealize.ShloMosaic.Lib.ValueLayout

noncomputable section

open scoped BigOperators

namespace Cert.Agree

open Idealize.ShloMosaic Idealize.ShloMosaic.TcCoe Idealize.SL.Sem Idealize.ShloMosaic.ValueIdx
open Cert.LibRealClosed

/-- The program's normalised value from the column's raw values. -/
def normK (r : Fin 100000 → EReal) (g be : EReal) (n : Fin 100000) : EReal :=
  r n * (g * Ideal.rsqrt (max (Ideal.div (∑ i, r i * r i) (Ideal.ofBits .f32 0x47C35000#32)
        - Ideal.div (∑ i, r i) (Ideal.ofBits .f32 0x47C35000#32) * Ideal.div (∑ i, r i) (Ideal.ofBits .f32 0x47C35000#32))
      (Ideal.ofBits .f32 0x00000000#32) + Ideal.ofBits .f32 0x3727C5AC#32))
    + (be - Ideal.div (∑ i, r i) (Ideal.ofBits .f32 0x47C35000#32) * (g * Ideal.rsqrt (max (Ideal.div (∑ i, r i * r i) (Ideal.ofBits .f32 0x47C35000#32)
        - Ideal.div (∑ i, r i) (Ideal.ofBits .f32 0x47C35000#32) * Ideal.div (∑ i, r i) (Ideal.ofBits .f32 0x47C35000#32))
      (Ideal.ofBits .f32 0x00000000#32) + Ideal.ofBits .f32 0x3727C5AC#32)))

/-- On a column of real raw values, with real γ and β, the two normalised values are one. -/
theorem norm_agree (r : Fin 100000 → EReal) (hr : ∀ i, IsReal (r i)) (g be : EReal) (hg : IsReal g) (hbe : IsReal be) (n : Fin 100000) :
    normK r g be n = Cert.ReferenceIdeal.At.normR r g be n := by
  choose rr hrr using hr
  obtain ⟨g', rfl⟩ := hg
  obtain ⟨be', rfl⟩ := hbe
  have hfun : r = fun i => ((rr i : ℝ) : EReal) := funext hrr
  subst hfun
  have hc : (Fintype.card (Fin 100000) : ℝ) = 100000 := by simp
  unfold normK Cert.ReferenceIdeal.At.normR Cert.ReferenceIdeal.At.varR Cert.ReferenceIdeal.At.meanR
  rw [Cert.Lits.nodes, Cert.Lits.zero, Cert.Lits.epsilon]
  rw [Cert.BatchNorm.ker_norm rr 100000 (by norm_num) hc g' be' Cert.Lits.eps (rr n) Cert.Lits.eps_pos,
    Cert.BatchNorm.ref_norm rr 100000 (by norm_num) g' be' Cert.Lits.eps (rr n) Cert.Lits.eps_pos,
    Cert.BatchNorm.norm_forms rr 100000 (by norm_num) hc g' be' Cert.Lits.eps (rr n)]

section Kernel

open Cert.KernelIdeal Cert.KernelIdeal.Gen

variable (m : (ℓ : Loc nD τ sig) → Buf (Elt Ideal) ℓ) (c : Dev nD)

/-- A [N] array reshaped to a column [N, 1] reads, at (n, 0), the array at n. -/
theorem column_entry (v : S100000.Idx → EReal) (n : Fin 100000) :
    shapeCast S100000x1 v shapeCasts_S100000_S100000x1 (ix2 n (0 : Fin 1)) = v (ix1 n) :=
  shapeCast_apply v shapeCasts_S100000_S100000x1 _ _ (by
    rw [Shape.rowMajor_val_two, Shape.rowMajor_val_one]
    show n.val = n.val * 1 + 0
    omega)

/-- The number of nodes, at any column. -/
theorem nodes_entry (q : Fin 128) : Cert.KernelIdeal.Fold.nodes (ix1 q) = Ideal.ofBits .f32 0x47C35000#32 := rfl

/-- The column's raw values as the program forms them are the reference's column. -/
theorem raw_entry (n : Fin 100000) (q : Fin 128) :
    Cert.KernelIdeal.Stats.rawOf (Cert.KernelIdeal.Whole.feat m c) (Cert.KernelIdeal.Whole.dcol m c) (Cert.KernelIdeal.Whole.brow m c) n q
      = Cert.ReferenceIdeal.At.col (m ((c : Thread nD τ).loc main_arg0)) (m ((c : Thread nD τ).loc main_arg1)) (m ((c : Thread nD τ).loc main_arg2))
          (m ((c : Thread nD τ).loc main_arg3)) (m ((c : Thread nD τ).loc main_arg4)) q n := by
  unfold Cert.KernelIdeal.Stats.rawOf Cert.ReferenceIdeal.At.col Cert.ReferenceIdeal.At.raw
  rw [show Cert.KernelIdeal.Whole.dcol m c (ix2 n (0 : Fin 1)) = Cert.ReferenceIdeal.Read.val_main_v19 (m ((c : Thread nD τ).loc main_arg1)) (m ((c : Thread nD τ).loc main_arg2)) (ix1 n) from column_entry _ n,
    show Cert.KernelIdeal.Whole.brow m c (ix2 (0 : Fin 1) q) = (m ((c : Thread nD τ).loc main_arg4)) (ix1 q) from shapeCast_a_1a_apply _ _ _ _]

/-- The raw value as the third kernel forms it. -/
theorem raw_entry' (n : Fin 100000) (q : Fin 128) :
    Cert.KernelIdeal.Whole.feat m c (ix2 n q) * Cert.KernelIdeal.Whole.dcol m c (ix2 n (0 : Fin 1)) + Cert.KernelIdeal.Whole.brow m c (ix2 (0 : Fin 1) q) = (Cert.ReferenceIdeal.At.col (m ((c : Thread nD τ).loc main_arg0)) (m ((c : Thread nD τ).loc main_arg1)) (m ((c : Thread nD τ).loc main_arg2)) (m ((c : Thread nD τ).loc main_arg3)) (m ((c : Thread nD τ).loc main_arg4)) q) n :=
  raw_entry m c n q

/-- The program's result at node n, column q. -/
theorem ker_at (n : Fin 100000) (q : Fin 128) :
    Cert.KernelIdeal.Whole.result m c (ix2 n q)
      = normK (Cert.ReferenceIdeal.At.col (m ((c : Thread nD τ).loc main_arg0)) (m ((c : Thread nD τ).loc main_arg1)) (m ((c : Thread nD τ).loc main_arg2)) (m ((c : Thread nD τ).loc main_arg3)) (m ((c : Thread nD τ).loc main_arg4)) q) ((m ((c : Thread nD τ).loc main_arg5)) (ix1 q)) ((m ((c : Thread nD τ).loc main_arg6)) (ix1 q)) n
        * Ideal.logistic (normK (Cert.ReferenceIdeal.At.col (m ((c : Thread nD τ).loc main_arg0)) (m ((c : Thread nD τ).loc main_arg1)) (m ((c : Thread nD τ).loc main_arg2)) (m ((c : Thread nD τ).loc main_arg3)) (m ((c : Thread nD τ).loc main_arg4)) q) ((m ((c : Thread nD τ).loc main_arg5)) (ix1 q)) ((m ((c : Thread nD τ).loc main_arg6)) (ix1 q)) n) := by
  unfold Cert.KernelIdeal.Whole.result
  rw [Cert.KernelIdeal.Gate.gated_entry]
  unfold Cert.KernelIdeal.Gate.gate
  rw [show Cert.KernelIdeal.Whole.srow m c (ix2 (0 : Fin 1) q) = Cert.KernelIdeal.Fold.scaleOf (Cert.KernelIdeal.Whole.sums m c) (Cert.KernelIdeal.Whole.sumsqs m c) (m ((c : Thread nD τ).loc main_arg5)) (ix1 q) from
        shapeCast_a_1a_apply _ _ _ _,
    show Cert.KernelIdeal.Whole.hrow m c (ix2 (0 : Fin 1) q) = Cert.KernelIdeal.Fold.shiftOf (Cert.KernelIdeal.Whole.sums m c) (Cert.KernelIdeal.Whole.sumsqs m c) (m ((c : Thread nD τ).loc main_arg5)) (m ((c : Thread nD τ).loc main_arg6)) (ix1 q) from
        shapeCast_a_1a_apply _ _ _ _]
  rw [Cert.KernelIdeal.Fold.shift_entry, Cert.KernelIdeal.Fold.scale_entry, Cert.KernelIdeal.Fold.mean_entry]
  rw [show Cert.KernelIdeal.Whole.sums m c (ix2 (0 : Fin 1) q) = ∑ n' : Fin 100000, Cert.KernelIdeal.Stats.rawOf (Cert.KernelIdeal.Whole.feat m c) (Cert.KernelIdeal.Whole.dcol m c) (Cert.KernelIdeal.Whole.brow m c) n' q from
        Cert.KernelIdeal.Stats.colSums_entry _ _ _ _ _,
    show Cert.KernelIdeal.Whole.sumsqs m c (ix2 (0 : Fin 1) q) = ∑ n' : Fin 100000, Cert.KernelIdeal.Stats.rawOf (Cert.KernelIdeal.Whole.feat m c) (Cert.KernelIdeal.Whole.dcol m c) (Cert.KernelIdeal.Whole.brow m c) n' q
          * Cert.KernelIdeal.Stats.rawOf (Cert.KernelIdeal.Whole.feat m c) (Cert.KernelIdeal.Whole.dcol m c) (Cert.KernelIdeal.Whole.brow m c) n' q from Cert.KernelIdeal.Stats.colSumSqs_entry _ _ _ _ _]
  rw [raw_entry' m c n q]
  have hS : ∑ n' : Fin 100000, Cert.KernelIdeal.Stats.rawOf (Cert.KernelIdeal.Whole.feat m c) (Cert.KernelIdeal.Whole.dcol m c) (Cert.KernelIdeal.Whole.brow m c) n' q = ∑ n' : Fin 100000, (Cert.ReferenceIdeal.At.col (m ((c : Thread nD τ).loc main_arg0)) (m ((c : Thread nD τ).loc main_arg1)) (m ((c : Thread nD τ).loc main_arg2)) (m ((c : Thread nD τ).loc main_arg3)) (m ((c : Thread nD τ).loc main_arg4)) q) n' :=
    Finset.sum_congr rfl fun n' _ => raw_entry m c n' q
  have hQ : ∑ n' : Fin 100000, Cert.KernelIdeal.Stats.rawOf (Cert.KernelIdeal.Whole.feat m c) (Cert.KernelIdeal.Whole.dcol m c) (Cert.KernelIdeal.Whole.brow m c) n' q * Cert.KernelIdeal.Stats.rawOf (Cert.KernelIdeal.Whole.feat m c) (Cert.KernelIdeal.Whole.dcol m c) (Cert.KernelIdeal.Whole.brow m c) n' q = ∑ n' : Fin 100000, (Cert.ReferenceIdeal.At.col (m ((c : Thread nD τ).loc main_arg0)) (m ((c : Thread nD τ).loc main_arg1)) (m ((c : Thread nD τ).loc main_arg2)) (m ((c : Thread nD τ).loc main_arg3)) (m ((c : Thread nD τ).loc main_arg4)) q) n' * (Cert.ReferenceIdeal.At.col (m ((c : Thread nD τ).loc main_arg0)) (m ((c : Thread nD τ).loc main_arg1)) (m ((c : Thread nD τ).loc main_arg2)) (m ((c : Thread nD τ).loc main_arg3)) (m ((c : Thread nD τ).loc main_arg4)) q) n' :=
    Finset.sum_congr rfl fun n' _ => by rw [raw_entry m c n' q]
  rw [hS, hQ]
  unfold normK
  rfl

/-- The raw values of a column are real when the float arguments are. -/
theorem col_real (h0 : AllReal (φ := .f32) (m ((c : Thread nD τ).loc main_arg0))) (h2 : AllReal (φ := .f32) (m ((c : Thread nD τ).loc main_arg2))) (h3 : AllReal (φ := .f32) (m ((c : Thread nD τ).loc main_arg3)))
    (h4 : AllReal (φ := .f32) (m ((c : Thread nD τ).loc main_arg4))) (q : Fin 128) (n : Fin 100000) : IsReal ((Cert.ReferenceIdeal.At.col (m ((c : Thread nD τ).loc main_arg0)) (m ((c : Thread nD τ).loc main_arg1)) (m ((c : Thread nD τ).loc main_arg2)) (m ((c : Thread nD τ).loc main_arg3)) (m ((c : Thread nD τ).loc main_arg4)) q) n) := by
  unfold Cert.ReferenceIdeal.At.col Cert.ReferenceIdeal.At.raw
  exact ((Cert.ReferenceIdeal.Reals.real_aggregated _ _ _ h0 h3 _).mul (Cert.ReferenceIdeal.Reals.real_inv_degree _ _ h2 _)).add (h4 _)

/-- The program's result array is the reference's. -/
theorem result_agrees (h0 : AllReal (φ := .f32) (m ((c : Thread nD τ).loc main_arg0))) (h2 : AllReal (φ := .f32) (m ((c : Thread nD τ).loc main_arg2))) (h3 : AllReal (φ := .f32) (m ((c : Thread nD τ).loc main_arg3)))
    (h4 : AllReal (φ := .f32) (m ((c : Thread nD τ).loc main_arg4))) (h5 : AllReal (φ := .f32) (m ((c : Thread nD τ).loc main_arg5))) (h6 : AllReal (φ := .f32) (m ((c : Thread nD τ).loc main_arg6))) :
    Cert.KernelIdeal.Whole.result m c = Cert.ReferenceIdeal.Read.val_main_v89 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨n, q, rfl⟩ : ∃ (n : Fin 100000) (q : Fin 128), i = ix2 n q := ⟨i 0, i 1, eq_ix2 i⟩
  rw [ker_at, Cert.ReferenceIdeal.At.out_at]
  unfold Cert.ReferenceIdeal.At.gateR
  rw [norm_agree _ (col_real m c h0 h2 h3 h4 q) _ _ (h5 _) (h6 _) n, ← Cert.BatchNorm.logistic_spelt]

end Kernel

end Cert.Agree

end
-- ==== Proof.LibFiniteInputs.lean ====
/-
  Finite inputs are real numbers.

  A certificate's usual precondition says of each float argument x that all(|x| < +∞). It prints as a reduction by
  "and", over every axis and from the constant 1, of the comparison of |x| with a broadcast of the word 0x7F800000. On
  the extended reals |x| is max x (-x), that word is ⊤, and the comparison is the linear order's: so when the reduction
  is 1 at its one index, every entry x has max x (-x) < ⊤, which excludes x = ⊤ directly and x = ⊥ through -⊥ = ⊤, and
  what is left is a real number. Generic in the argument's shape and in the axes of the reduction.
-/
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

open Idealize.ShloMosaic Idealize.ShloMosaic.ValueIdx

namespace Cert.LibFiniteInputs

/-- The rank-0 shape has one index. -/
instance : Subsingleton (⟨0, ![]⟩ : Shape).Idx := ⟨fun a b => funext fun d => d.elim0⟩

/-- The word 0x7F800000 read as an f32 is +∞. -/
theorem ofBits_inf_f32 : Ideal.ofBits .f32 0x7F800000#32 = ⊤ := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One argument's part of the precondition: if all(|x| < +∞), printed as the reduce by and over all axes of the
    comparison of |x| with the broadcast +∞ word, is 1 at the one index, every entry of x is a real number. -/
theorem real_of_all_finite {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (h : Host.reduce IntOp.andi
          (cmpf .olt (Host.absf x) (broadcastInDim S ![] hb (constant (⟨0, ![]⟩ : Shape) .f32 0x7F800000#32)))
          (constantI (⟨0, ![]⟩ : Shape) 1 1#1) hr hu ix0 = 1#1) :
    ∀ i, ∃ r : ℝ, x i = (r : EReal) := by
  intro i
  have e := Host.reduce_andi_all _ _ hr hu ix0 h i
  have e' : Ideal.cmp .olt (max (x i) (-(x i))) ⊤ = 1#1 := by
    rw [← ofBits_inf_f32]; exact e
  refine real_of_abs_lt_top (x i) ?_
  simp only [Ideal.cmp] at e'
  by_contra hc
  simp [hc] at e'

end Cert.LibFiniteInputs

end
-- ==== Proof.Finite.lean ====
/-
  The precondition read back: every float argument holds real numbers.

  The precondition is the conjunction, over the six float arguments, of  all(|x| < +inf), each printed as a reduction
  by "and" over every axis of the comparison of |x| with the +inf word. When the conjunction is 1 each conjunct is,
  and then every entry of that argument is below +inf in absolute value: a real number.
-/
import proofs.«117371_j55035710931434_2_alg».proof.Pre_finite_inputs
import proofs.«117371_j55035710931434_2_alg».proof.Proof.LibFiniteInputs
import proofs.«117371_j55035710931434_2_alg».proof.Proof.LibRealClosed

noncomputable section

namespace Cert.Finite

open Idealize.ShloMosaic Idealize.ShloMosaic.ValueIdx Cert.LibRealClosed Cert.Pre_finite_inputs
open Cert.Pre_finite_inputs.Facts

variable [Cert.Pre_finite_inputs.Facts]

theorem inputs_real (a0 : FVec Ideal S100000x128 .f32) (a1 : IVec S2x1600000 32) (a2 : FVec Ideal S50000 .f32)
    (a3 : FVec Ideal S128x128 .f32) (a4 a5 a6 : FVec Ideal S128 .f32)
    (h : Cert.Pre_finite_inputs.fn (F := Ideal) a0 a1 a2 a3 a4 a5 a6 = fun _ => 1#1) :
    AllReal a0 ∧ AllReal a2 ∧ AllReal a3 ∧ AllReal a4 ∧ AllReal a5 ∧ AllReal a6 := by
  have h0 := congrFun h ix0
  unfold Cert.Pre_finite_inputs.fn Cert.Pre_finite_inputs.fn_part1 at h0
  dsimp only at h0
  obtain ⟨h1, r6⟩ := IntOp.andi_eq_one.mp h0
  obtain ⟨h2, r5⟩ := IntOp.andi_eq_one.mp h1
  obtain ⟨h3, r4⟩ := IntOp.andi_eq_one.mp h2
  obtain ⟨h4, r3⟩ := IntOp.andi_eq_one.mp h3
  obtain ⟨r0, r2⟩ := IntOp.andi_eq_one.mp h4
  exact ⟨Cert.LibFiniteInputs.real_of_all_finite a0 bcast_S_S100000x128 reducesTo_S100000x128_S_d0_1 h_S_ r0,
    Cert.LibFiniteInputs.real_of_all_finite a2 bcast_S_S50000 reducesTo_S50000_S_d0 h_S_ r2,
    Cert.LibFiniteInputs.real_of_all_finite a3 bcast_S_S128x128 reducesTo_S128x128_S_d0_1 h_S_ r3,
    Cert.LibFiniteInputs.real_of_all_finite a4 bcast_S_S128 reducesTo_S128_S_d0 h_S_ r4,
    Cert.LibFiniteInputs.real_of_all_finite a5 bcast_S_S128 reducesTo_S128_S_d0 h_S_ r5,
    Cert.LibFiniteInputs.real_of_all_finite a6 bcast_S_S128 reducesTo_S128_S_d0 h_S_ r6⟩

end Cert.Finite

end
-- ==== Proof.lean ====
/-
  The certificate of a hypergraph convolution block: a Pallas program of three kernels (a feature projection, a
  batch-statistics reduction, a fused normalise-and-gate) among segment sums and gathers, against its plain
  reference, on the extended reals.

  Both programs compute  out = silu(batchnorm(D⁻¹ H B⁻¹ Hᵀ (X W) + b)).  They share the array operations that turn
  the projected features into the aggregated features A and the guarded inverse degree d; they differ in the
  projection (a blocked matrix product against one product), in the batch statistics (the variance as
  E[r²] − (E r)², cut off at zero, from blockwise accumulated sums, against the mean of squared deviations), in the
  affine map (folded into a scale and a shift against centre, scale, offset) and in the spelling of the logistic
  function. On real inputs the raw values  r = A · d + b  are real, and there the two forms agree.

  The frames of the two kernel programs are the generated ones; the reference's frame is its run with the result
  dropped. The idealization rewrote nothing. The value claim joins the program's run with its result named
  (the fold of the program over the launch memory, opened kernel by kernel) to the reference's run read at an index.
-/
import proofs.«117371_j55035710931434_2_alg».proof.Defs
import proofs.«117371_j55035710931434_2_alg».proof.Proof.Gen.Kernel
import proofs.«117371_j55035710931434_2_alg».proof.Proof.Gen.Kernel.Skeleton
import proofs.«117371_j55035710931434_2_alg».proof.Proof.Gen.Kernel.Launch
import proofs.«117371_j55035710931434_2_alg».proof.Proof.Gen.Kernel.Points
import proofs.«117371_j55035710931434_2_alg».proof.Proof.Gen.Kernel.Frame
import proofs.«117371_j55035710931434_2_alg».proof.Proof.Gen.KernelIdeal
import proofs.«117371_j55035710931434_2_alg».proof.Proof.Gen.KernelIdeal.Skeleton
import proofs.«117371_j55035710931434_2_alg».proof.Proof.Gen.KernelIdeal.Launch
import proofs.«117371_j55035710931434_2_alg».proof.Proof.Gen.KernelIdeal.Points
import proofs.«117371_j55035710931434_2_alg».proof.Proof.Gen.KernelIdeal.Frame
import proofs.«117371_j55035710931434_2_alg».proof.Proof.Gen.ReferenceIdeal
import proofs.«117371_j55035710931434_2_alg».proof.Proof.Gen.Pre_finite_inputs
import proofs.«117371_j55035710931434_2_alg».proof.Proof.KRun
import proofs.«117371_j55035710931434_2_alg».proof.Proof.Bridge
import proofs.«117371_j55035710931434_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- On real inputs the program's result array and the reference's are equal, entry by entry. -/
theorem algebraic : Cert.algebraic_KernelIdeal_ReferenceIdeal := by
  intro m ρ m' ρ' hpre hagree
  refine ⟨fun c => Cert.KernelIdeal.Whole.result m c, ?_, ?_⟩
  · exact (θ_run Cert.KernelIdeal.defs _ _).mono
      (fun r h c => ⟨((h c).1).trans (Cert.KernelIdeal.Whole.result_eq m ρ c), (h c).2⟩) (Cert.KernelIdeal.Run.run_result m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6⟩ := hagree c
    obtain ⟨h0, h2, h3, h4, h5, h6⟩ := Cert.Finite.inputs_real _ _ _ _ _ _ _ (hpre c)
    rw [(h c).1, Cert.ReferenceIdeal.Read.val_main_v89_eq, e0, e1, e2, e3, e4, e5, e6]
    exact (Cert.Agree.result_agrees m c h0 h2 h3 h4 h5 h6).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
